-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S10000x128 : Shape := ⟨2, ![10000, 128]⟩

abbrev nBuf : Space → Nat
  | .hbm => 105
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S1700000x1, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x128, .f32⟩
  | .hbm, ⟨97, _⟩ => ⟨S1700000x128, .f32⟩
  | .hbm, ⟨98, _⟩ => ⟨S1700000x128, .f32⟩
  | .hbm, ⟨99, _⟩ => ⟨S_, .f32⟩
  | .hbm, ⟨100, _⟩ => ⟨S100000x128, .f32⟩
  | .hbm, ⟨101, _⟩ => ⟨S1700000x1, .i32⟩
  | .hbm, ⟨102, _⟩ => ⟨S100000x128, .f32⟩
  | .hbm, ⟨103, _⟩ => ⟨S1x128, .f32⟩
  | .hbm, ⟨104, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 128
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S1700000x1, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x128, .f32⟩
  | .hbm, ⟨102, _⟩ => ⟨S1700000x128, .f32⟩
  | .hbm, ⟨103, _⟩ => ⟨S1700000x128, .f32⟩
  | .hbm, ⟨104, _⟩ => ⟨S_, .f32⟩
  | .hbm, ⟨105, _⟩ => ⟨S100000x128, .f32⟩
  | .hbm, ⟨106, _⟩ => ⟨S1700000x1, .i32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | .hbm, ⟨111, _⟩ => ⟨S_, .f32⟩
  | .hbm, ⟨112, _⟩ => ⟨S100000x128, .f32⟩
  | .hbm, ⟨113, _⟩ => ⟨S100000x128, .f32⟩
  | .hbm, ⟨114, _⟩ => ⟨S100000x128, .f32⟩
  | .hbm, ⟨115, _⟩ => ⟨S100000x128, .f32⟩
  | .hbm, ⟨116, _⟩ => ⟨S100000x128, .i1⟩
  | .hbm, ⟨117, _⟩ => ⟨S100000x128, .f32⟩
  | .hbm, ⟨118, _⟩ => ⟨S100000x128, .f32⟩
  | .hbm, ⟨119, _⟩ => ⟨S100000x128, .f32⟩
  | .hbm, ⟨120, _⟩ => ⟨S100000x128, .f32⟩
  | .hbm, ⟨121, _⟩ => ⟨S100000x128, .f32⟩
  | .hbm, ⟨122, _⟩ => ⟨S100000x128, .f32⟩
  | .hbm, ⟨123, _⟩ => ⟨S100000x128, .f32⟩
  | .hbm, ⟨124, _⟩ => ⟨S100000x128, .f32⟩
  | .hbm, ⟨125, _⟩ => ⟨S_, .f32⟩
  | .hbm, ⟨126, _⟩ => ⟨S100000x128, .f32⟩
  | .hbm, ⟨127, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_v82 : Ref sig .tc := ⟨.hbm, 124, rfl⟩
abbrev main_cst_15 : Ref sig .tc := ⟨.hbm, 125, rfl⟩
abbrev main_v83 : Ref sig .tc := ⟨.hbm, 126, rfl⟩
abbrev main_v84 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run, with its two results named.

  @main is twelve segments: stretches of host operations and six kernel launches. Every weakly fair execution
  terminates without a fault, and in the final state every buffer of the TensorCore holds what the fold of the segments
  over the launch memory gives it (`Gen.W12`): in particular the two result arrays, while the arguments end as
  launched.
-/
import proofs.«109854_j80083960201232_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the two result arrays end at the fold's
    contents and the arguments as launched. -/
theorem run_named : θ_run defs (onTc (τ := τ) (main (F := F))) ⟨m, fun _ => 0, ρ⟩ (fun r => ∀ c : Dev nD,
      r.2.mem ((c.tc : Thread nD τ).loc main_v61) = W12 m ρ c (Proc.devRef .tc main_v61)
      ∧ r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v61 (by decide)),
       h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.GcnRun

end
-- ==== Proof.GcnSpec.lean ====
/-
  What the graph-convolution network computes, as functions of the argument arrays.

  The edge list `x1 : i32[2, 1600000]` gives sources (row 0) and targets (row 1); both are extended by the 100000
  self loops `0, 1, …, 99999`. The degree of a node is the number of edges (self loop included) that target it, a
  scatter-add of ones; `dinv` is its inverse square root where the degree is positive and 0 elsewhere; the weight of
  an edge is `dinv[source] * dinv[target]` (negative indices wrapped by + 100000 before the gather).
  One convolution of node features `t : [100000, 128]` is the scatter-add, onto the rows of a zero array named by
  the targets, of the source rows of `t`, each scaled by its edge's weight (`aggS`). The network is
    h     = relu (aggS (x0 · x2) + x3)
    mu    = aggS (h · x4) + x5
    sigma = softplus (aggS (h · x6) + x7) + 1e-7
  with `·` the matrix product and the biases broadcast along the rows.
-/
import proofs.«109854_j80083960201232_1_alg».proof.Proof.Gen.ReferenceIdeal

noncomputable section

namespace Cert.Gcn

open Cert.ReferenceIdeal Cert.ReferenceIdeal.Gen Idealize.ShloMosaic

variable {F : FTy → Type} [FloatOps F]

/-- One row of the edge list, followed by the self loops. -/
def endsS (r : Fin 2 → Nat) (hs : S2x1600000.Slices r S1x1600000)
    (x1 : (⟨S2x1600000, .i32⟩ : BufTy).Contents (Elt F)) : (⟨S1700000, .i32⟩ : BufTy).Contents (Elt F) :=
  concatenate S1700000 0 [⟨S1600000, (shapeCast _ (extractStridedSlice S1x1600000 r x1 hs) shapeCasts_S1x1600000_S1600000)⟩,
    ⟨S100000, (iotaInDim S100000 32 0)⟩] concatenates_S1600000_S100000_S1700000_d0

/-- The edges' sources. -/
def rowS (x1 : (⟨S2x1600000, .i32⟩ : BufTy).Contents (Elt F)) : (⟨S1700000, .i32⟩ : BufTy).Contents (Elt F) :=
  endsS (F := F) ![0, 0] slices_S2x1600000_S1x1600000_0_0 x1

/-- The edges' targets. -/
def colS (x1 : (⟨S2x1600000, .i32⟩ : BufTy).Contents (Elt F)) : (⟨S1700000, .i32⟩ : BufTy).Contents (Elt F) :=
  endsS (F := F) ![1, 0] slices_S2x1600000_S1x1600000_1_0 x1

/-- Node numbers as gather indices: a negative one wrapped by + 100000, as a column. -/
def adjS (idx : (⟨S1700000, .i32⟩ : BufTy).Contents (Elt F)) : (⟨S1700000x1, .i32⟩ : BufTy).Contents (Elt F) :=
  broadcastInDim S1700000x1 ![0] bcast_S1700000_S1700000x1_0
    (select (cmpi .slt idx (broadcastInDim S1700000 ![] bcast_S_S1700000 (constantI S_ 32 0#32)))
      (addi idx (broadcastInDim S1700000 ![] bcast_S_S1700000 (constantI S_ 32 100000#32))) idx)

/-- The degree of every node: ones added at the edges' targets. -/
def degS (col : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col)
    (broadcastInDim S1700000 ![] bcast_S_S1700000 (constant S_ .f32 0x3F800000#32))

/-- The inverse square root of the degree where it is positive, 0 elsewhere. -/
def dinvS (col : (⟨S1700000, .i32⟩ : BufTy).Contents (Elt F)) : (⟨S100000, .f32⟩ : BufTy).Contents (Elt F) :=
  select (cmpf (F := F) .ogt (degS (F := F) col) (broadcastInDim S100000 ![] bcast_S_S100000 (constant S_ .f32 0x00000000#32)))
    (Host.rsqrt (degS (F := F) col))
    (broadcastInDim S100000 ![] bcast_S_S100000 (constant S_ .f32 0x00000000#32))

/-- The weight of every edge. -/
def normS (row col : (⟨S1700000, .i32⟩ : BufTy).Contents (Elt F)) : (⟨S1700000, .f32⟩ : BufTy).Contents (Elt F) :=
  mulf (Host.gather gather_S100000_S1700000x1_S1700000_n_0_n_n_0_1_1 (dinvS (F := F) col) (adjS (F := F) row))
    (Host.gather gather_S100000_S1700000x1_S1700000_n_0_n_n_0_1_1 (dinvS (F := F) col) (adjS (F := F) col))

/-- One convolution: the weighted source rows of `t` added at the target rows of a zero array. -/
def aggS (norm : (⟨S1700000, .f32⟩ : BufTy).Contents (Elt F)) (row col : (⟨S1700000, .i32⟩ : BufTy).Contents (Elt F))
    (t : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 col)
    (mulf (broadcastInDim S1700000x128 ![0, 1] bcast_S1700000x1_S1700000x128_0_1
        (broadcastInDim S1700000x1 ![0] bcast_S1700000_S1700000x1_0 norm))
      (Host.gather gather_S100000x128_S1700000x1_S1700000x128_1_0_n_n_0_1_1128 t (adjS (F := F) row)))

/-- A bias, broadcast along the rows. -/
def biasS (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- The zero array. -/
def zerosS : (⟨S100000x128, .f32⟩ : BufTy).Contents (Elt F) :=
  broadcastInDim S100000x128 ![] bcast_S_S100000x128 (constant S_ .f32 0x00000000#32)

/-- `max y 0`. -/
def reluS (y : (⟨S100000x128, .f32⟩ : BufTy).Contents (Elt F)) : (⟨S100000x128, .f32⟩ : BufTy).Contents (Elt F) :=
  maximumf y (zerosS (F := F))

/-- `log (1 + exp y)` in jax's spelling: `max y 0 + log1p (exp (-|y - 0|))`, behind a guard on `y - 0` differing from itself. -/
def softplusS (y : (⟨S100000x128, .f32⟩ : BufTy).Contents (Elt F)) : (⟨S100000x128, .f32⟩ : BufTy).Contents (Elt F) :=
  select (cmpf .une (subf y (zerosS (F := F))) (subf y (zerosS (F := F)))) (addf y (zerosS (F := F)))
    (addf (maximumf y (zerosS (F := F))) (Host.log1p (Host.exp (Host.negf (Host.absf (subf y (zerosS (F := F))))))))

/-- The hidden layer. -/
def hS (x0 : (⟨S100000x256, .f32⟩ : BufTy).Contents (Elt F)) (x1 : (⟨S2x1600000, .i32⟩ : BufTy).Contents (Elt F))
    (x2 : (⟨S256x128, .f32⟩ : BufTy).Contents (Elt F)) (x3 : (⟨S128, .f32⟩ : BufTy).Contents (Elt F)) :
    (⟨S100000x128, .f32⟩ : BufTy).Contents (Elt F) :=
  reluS (F := F) (addf (aggS (F := F) (normS (F := F) (rowS (F := F) x1) (colS (F := F) x1)) (rowS (F := F) x1) (colS (F := F) x1)
    (Host.dotGeneral dot_S100000x256_S256x128_S100000x128_1_0_0_1_n_n none x0 x2)) (biasS (F := F) x3))

/-- The mean head. -/
def muS (x0 : (⟨S100000x256, .f32⟩ : BufTy).Contents (Elt F)) (x1 : (⟨S2x1600000, .i32⟩ : BufTy).Contents (Elt F))
    (x2 : (⟨S256x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F)) :
    (⟨S100000x128, .f32⟩ : BufTy).Contents (Elt F) :=
  addf (aggS (F := F) (normS (F := F) (rowS (F := F) x1) (colS (F := F) x1)) (rowS (F := F) x1) (colS (F := F) x1)
    (Host.dotGeneral dot_S100000x128_S128x128_S100000x128_1_0_0_1_n_n none (hS (F := F) x0 x1 x2 x3) x4)) (biasS (F := F) x5)

/-- The scale head. -/
def sigmaS (x0 : (⟨S100000x256, .f32⟩ : BufTy).Contents (Elt F)) (x1 : (⟨S2x1600000, .i32⟩ : BufTy).Contents (Elt F))
    (x2 : (⟨S256x128, .f32⟩ : BufTy).Contents (Elt F)) (x3 : (⟨S128, .f32⟩ : BufTy).Contents (Elt F))
    (x6 : (⟨S128x128, .f32⟩ : BufTy).Contents (Elt F)) (x7 : (⟨S128, .f32⟩ : BufTy).Contents (Elt F)) :
    (⟨S100000x128, .f32⟩ : BufTy).Contents (Elt F) :=
  addf (softplusS (F := F) (addf (aggS (F := F) (normS (F := F) (rowS (F := F) x1) (colS (F := F) x1)) (rowS (F := F) x1) (colS (F := F) x1)
    (Host.dotGeneral dot_S100000x128_S128x128_S100000x128_1_0_0_1_n_n none (hS (F := F) x0 x1 x2 x3) x6)) (biasS (F := F) x7)))
    (broadcastInDim S100000x128 ![] bcast_S_S100000x128 (constant S_ .f32 0x33D6BF95#32))

end Cert.Gcn

end
-- ==== Proof.KernelHost.lean ====
/-
  The host operations of the idealized kernel's @main, stretch by stretch.

  Before the first launch @main computes the edge ends and the edge weights from the edge list; before each
  bias-and-activation launch it runs one convolution's gather, scaling and scatter-add on the product the preceding
  launch left, and reshapes the bias to a row. Each stretch is read here as the network's named functions
  (`Cert.Gcn`) of the buffers it reads, and every other buffer it leaves alone.
-/
import proofs.«109854_j80083960201232_1_alg».proof.Proof.Gen.KernelIdeal.Launch
import proofs.«109854_j80083960201232_1_alg».proof.Proof.GcnSpec
import Idealize.ShloMosaic.Lib.StableHlo.Run

set_option maxRecDepth 16384

noncomputable section

namespace Cert.KernelIdeal.GcnHost

open Cert.KernelIdeal Cert.KernelIdeal.Gen
open Idealize.ShloMosaic Idealize.ShloMosaic.TcCoe Idealize.SL.Sem Idealize.ShloMosaic.StableHlo

variable {F : FTy → Type} [FloatOps F]

/-! ## Before the first launch: the edge ends and the edge weights -/

/-- The edges' sources. -/
theorem pre_v5 (W : Valuation τ sig (Elt F)) :
    (after hostOps0_2 (after hostOps0_1 (after hostOps0 W)) (Proc.devRef .tc main_v5) : (⟨S1700000, .i32⟩ : BufTy).Contents (Elt F))
      = Cert.Gcn.rowS (F := F) (W (Proc.devRef .tc main_arg1)) := by
  after_results_simp
  rfl

/-- The edges' targets. -/
theorem pre_v6 (W : Valuation τ sig (Elt F)) :
    (after hostOps0_2 (after hostOps0_1 (after hostOps0 W)) (Proc.devRef .tc main_v6) : (⟨S1700000, .i32⟩ : BufTy).Contents (Elt F))
      = Cert.Gcn.colS (F := F) (W (Proc.devRef .tc main_arg1)) := by
  after_results_simp
  rfl

/-- The edges' weights. -/
theorem pre_v29 (W : Valuation τ sig (Elt F)) :
    (after hostOps0_2 (after hostOps0_1 (after hostOps0 W)) (Proc.devRef .tc main_v29) : (⟨S1700000, .f32⟩ : BufTy).Contents (Elt F))
      = Cert.Gcn.normS (F := F) (Cert.Gcn.rowS (F := F) (W (Proc.devRef .tc main_arg1))) (Cert.Gcn.colS (F := F) (W (Proc.devRef .tc main_arg1))) := by
  after_results_simp
  rfl

theorem pre_keep_arg0 (W : Valuation τ sig (Elt F)) :
    after hostOps0_2 (after hostOps0_1 (after hostOps0 W)) (Proc.devRef .tc main_arg0) = W (Proc.devRef .tc main_arg0) := by
  after_results_simp

theorem pre_keep_arg2 (W : Valuation τ sig (Elt F)) :
    after hostOps0_2 (after hostOps0_1 (after hostOps0 W)) (Proc.devRef .tc main_arg2) = W (Proc.devRef .tc main_arg2) := by
  after_results_simp

theorem pre_keep_arg3 (W : Valuation τ sig (Elt F)) :
    after hostOps0_2 (after hostOps0_1 (after hostOps0 W)) (Proc.devRef .tc main_arg3) = W (Proc.devRef .tc main_arg3) := by
  after_results_simp

theorem pre_keep_arg4 (W : Valuation τ sig (Elt F)) :
    after hostOps0_2 (after hostOps0_1 (after hostOps0 W)) (Proc.devRef .tc main_arg4) = W (Proc.devRef .tc main_arg4) := by
  after_results_simp

theorem pre_keep_arg5 (W : Valuation τ sig (Elt F)) :
    after hostOps0_2 (after hostOps0_1 (after hostOps0 W)) (Proc.devRef .tc main_arg5) = W (Proc.devRef .tc main_arg5) := by
  after_results_simp

theorem pre_keep_arg6 (W : Valuation τ sig (Elt F)) :
    after hostOps0_2 (after hostOps0_1 (after hostOps0 W)) (Proc.devRef .tc main_arg6) = W (Proc.devRef .tc main_arg6) := by
  after_results_simp

theorem pre_keep_arg7 (W : Valuation τ sig (Elt F)) :
    after hostOps0_2 (after hostOps0_1 (after hostOps0 W)) (Proc.devRef .tc main_arg7) = W (Proc.devRef .tc main_arg7) := by
  after_results_simp

/-! ## Before the second launch -/

/-- One convolution of the product the preceding launch left, from the weights and the edge ends. -/
theorem ops1_agg (W : Valuation τ sig (Elt F)) :
    (after hostOps1 W (Proc.devRef .tc main_v43) : (⟨S100000x128, .f32⟩ : BufTy).Contents (Elt F))
      = Cert.Gcn.aggS (F := F) (W (Proc.devRef .tc main_v29)) (W (Proc.devRef .tc main_v5)) (W (Proc.devRef .tc main_v6))
          (W (Proc.devRef .tc main_v30)) := by
  after_results_simp
  rfl

/-- The bias as a row. -/
theorem ops1_bias (W : Valuation τ sig (Elt F)) :
    (after hostOps1 W (Proc.devRef .tc main_v44) : (⟨S1x128, .f32⟩ : BufTy).Contents (Elt F))
      = shapeCast S1x128 (W (Proc.devRef .tc main_arg3) : (⟨S128, .f32⟩ : BufTy).Contents (Elt F)) shapeCasts_S128_S1x128 := by
  after_results_simp
  rfl

theorem ops1_keep_v5 (W : Valuation τ sig (Elt F)) :
    after hostOps1 W (Proc.devRef .tc main_v5) = W (Proc.devRef .tc main_v5) := by
  after_results_simp

theorem ops1_keep_v6 (W : Valuation τ sig (Elt F)) :
    after hostOps1 W (Proc.devRef .tc main_v6) = W (Proc.devRef .tc main_v6) := by
  after_results_simp

theorem ops1_keep_v29 (W : Valuation τ sig (Elt F)) :
    after hostOps1 W (Proc.devRef .tc main_v29) = W (Proc.devRef .tc main_v29) := by
  after_results_simp

theorem ops1_keep_arg4 (W : Valuation τ sig (Elt F)) :
    after hostOps1 W (Proc.devRef .tc main_arg4) = W (Proc.devRef .tc main_arg4) := by
  after_results_simp

theorem ops1_keep_arg5 (W : Valuation τ sig (Elt F)) :
    after hostOps1 W (Proc.devRef .tc main_arg5) = W (Proc.devRef .tc main_arg5) := by
  after_results_simp

theorem ops1_keep_arg6 (W : Valuation τ sig (Elt F)) :
    after hostOps1 W (Proc.devRef .tc main_arg6) = W (Proc.devRef .tc main_arg6) := by
  after_results_simp

theorem ops1_keep_arg7 (W : Valuation τ sig (Elt F)) :
    after hostOps1 W (Proc.devRef .tc main_arg7) = W (Proc.devRef .tc main_arg7) := by
  after_results_simp

/-! ## Before the fourth launch -/

/-- One convolution of the product the preceding launch left, from the weights and the edge ends. -/
theorem ops3_agg (W : Valuation τ sig (Elt F)) :
    (after hostOps3 W (Proc.devRef .tc main_v59) : (⟨S100000x128, .f32⟩ : BufTy).Contents (Elt F))
      = Cert.Gcn.aggS (F := F) (W (Proc.devRef .tc main_v29)) (W (Proc.devRef .tc main_v5)) (W (Proc.devRef .tc main_v6))
          (W (Proc.devRef .tc main_v46)) := by
  after_results_simp
  rfl

/-- The bias as a row. -/
theorem ops3_bias (W : Valuation τ sig (Elt F)) :
    (after hostOps3 W (Proc.devRef .tc main_v60) : (⟨S1x128, .f32⟩ : BufTy).Contents (Elt F))
      = shapeCast S1x128 (W (Proc.devRef .tc main_arg5) : (⟨S128, .f32⟩ : BufTy).Contents (Elt F)) shapeCasts_S128_S1x128 := by
  after_results_simp
  rfl

theorem ops3_keep_v5 (W : Valuation τ sig (Elt F)) :
    after hostOps3 W (Proc.devRef .tc main_v5) = W (Proc.devRef .tc main_v5) := by
  after_results_simp

theorem ops3_keep_v6 (W : Valuation τ sig (Elt F)) :
    after hostOps3 W (Proc.devRef .tc main_v6) = W (Proc.devRef .tc main_v6) := by
  after_results_simp

theorem ops3_keep_v29 (W : Valuation τ sig (Elt F)) :
    after hostOps3 W (Proc.devRef .tc main_v29) = W (Proc.devRef .tc main_v29) := by
  after_results_simp

theorem ops3_keep_v45 (W : Valuation τ sig (Elt F)) :
    after hostOps3 W (Proc.devRef .tc main_v45) = W (Proc.devRef .tc main_v45) := by
  after_results_simp

theorem ops3_keep_arg6 (W : Valuation τ sig (Elt F)) :
    after hostOps3 W (Proc.devRef .tc main_arg6) = W (Proc.devRef .tc main_arg6) := by
  after_results_simp

theorem ops3_keep_arg7 (W : Valuation τ sig (Elt F)) :
    after hostOps3 W (Proc.devRef .tc main_arg7) = W (Proc.devRef .tc main_arg7) := by
  after_results_simp

/-! ## Before the sixth launch -/

/-- One convolution of the product the preceding launch left, from the weights and the edge ends. -/
theorem ops5_agg (W : Valuation τ sig (Elt F)) :
    (after hostOps5 W (Proc.devRef .tc main_v75) : (⟨S100000x128, .f32⟩ : BufTy).Contents (Elt F))
      = Cert.Gcn.aggS (F := F) (W (Proc.devRef .tc main_v29)) (W (Proc.devRef .tc main_v5)) (W (Proc.devRef .tc main_v6))
          (W (Proc.devRef .tc main_v62)) := by
  after_results_simp
  rfl

/-- The bias as a row. -/
theorem ops5_bias (W : Valuation τ sig (Elt F)) :
    (after hostOps5 W (Proc.devRef .tc main_v76) : (⟨S1x128, .f32⟩ : BufTy).Contents (Elt F))
      = shapeCast S1x128 (W (Proc.devRef .tc main_arg7) : (⟨S128, .f32⟩ : BufTy).Contents (Elt F)) shapeCasts_S128_S1x128 := by
  after_results_simp
  rfl

theorem ops5_keep_v61 (W : Valuation τ sig (Elt F)) :
    after hostOps5 W (Proc.devRef .tc main_v61) = W (Proc.devRef .tc main_v61) := by
  after_results_simp

end Cert.KernelIdeal.GcnHost

end
-- ==== Proof.LibPlainDot.lean ====
/-
  A plain matrix product read at an index.

  For the dimension numbers of an [M, K] by [K, N] product with no batch axis (`DotDims.plain`), the contraction index
  is one coordinate `k : Fin K`, the left operand is read at (r, k) and the right one at (k, q). So at the exact
  (extended-real) values both the matrix unit's product into a zero accumulator and the host's `dot_general` are, at
  output index (r, q), the plain sum over `k` of `lhs (r, k) * rhs (k, q)`.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {φ₁ φ₂ : FTy}

/-- The contraction shape of a plain product has one axis … -/
theorem contr_rank (M K N : Nat) : (DotDims.plain M K N).contr.rank = 1 := rfl
/-- … of extent `K`. -/
theorem contr_size (M K N : Nat) : (DotDims.plain M K N).contr.size ⟨0, by rw [contr_rank]; exact Nat.one_pos⟩ = K := rfl

/-- The contraction index of a plain product as its one coordinate. -/
abbrev kEquiv (M K N : Nat) : (DotDims.plain M K N).contr.Idx ≃ Fin K :=
  contrEquiv1 (DotDims.plain M K N) K (contr_rank M K N) (contr_size M K N)

/-- The left operand's index at output (r, q) and contraction coordinate k is (r, k). -/
theorem lhsIdx_eq {M K N : Nat} (r : Fin M) (q : Fin N) (k : Fin K) :
    (DotDims.plain M K N).lhsIdx (ix2 r q) ((kEquiv M K N).symm k) = ix2 r k := by
  have hk := contrEquiv1_symm_val (DotDims.plain M K N) K (contr_rank M K N) (contr_size M K N) k
  funext a
  refine Fin.ext ?_
  match a with
  | ⟨0, _⟩ => rfl
  | ⟨1, _⟩ => exact ((DotDims.plain M K N).lhsIdx_val_of_single rfl (ix2 r q) _).trans hk

/-- The right operand's index at output (r, q) and contraction coordinate k is (k, q). -/
theorem rhsIdx_eq {M K N : Nat} (r : Fin M) (q : Fin N) (k : Fin K) :
    (DotDims.plain M K N).rhsIdx (ix2 r q) ((kEquiv M K N).symm k) = ix2 k q := by
  have hk := contrEquiv1_symm_val (DotDims.plain M K N) K (contr_rank M K N) (contr_size M K N) k
  funext a
  refine Fin.ext ?_
  match a with
  | ⟨0, _⟩ => exact ((DotDims.plain M K N).rhsIdx_val_of_single rfl (ix2 r q) _).trans hk
  | ⟨1, _⟩ => rfl

/-- The matrix unit's product into a zero accumulator, at (r, q): the sum over k of lhs (r, k) * rhs (k, q). -/
theorem matmul_zero_apply {M K N : Nat} (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (kEquiv M K N).symm]
  exact Finset.sum_congr rfl fun k _ => by rw [lhsIdx_eq, rhsIdx_eq]

/-- The host's `dot_general` of the same dimension numbers, at (r, q): the same sum. -/
theorem dotGeneral_apply {M K N : Nat} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (kEquiv M K N).symm]
  exact Finset.sum_congr rfl fun k _ => by rw [lhsIdx_eq, rhsIdx_eq]

end Idealize.ShloMosaic.PlainDot

end
-- ==== Proof.RegionMM0.lean ====
/-
  Launch 0 of the idealized kernel: a row-blocked matrix product.

  The grid has 20 points; point `t` takes rows `5000 t … 5000 t + 4999` of the left operand `a : [100000, 256]` and the
  whole right operand `w : [256, 128]`, multiplies them on the matrix unit into a zero accumulator (the change of format
  to bf16 before it is the identity on exact values), and writes the [5000, 128] result back to the same rows of the
  output. Element (p, q) of a block's product is the sum over `k` of `a (5000 t + p, k) * w (k, q)`, which is element
  (5000 t + p, q) of the whole product `a · w`; the twenty blocks tile the output, so the output array ends holding
  `a · w`.
-/
import proofs.«109854_j80083960201232_1_alg».proof.Proof.Gen.KernelIdeal.Frame
import proofs.«109854_j80083960201232_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GcnMM0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The whole product `a · w`. -/
def mm (a : (⟨2, ![100000, 256]⟩ : Shape).Idx → Ideal .f32) (w : (⟨2, ![256, 128]⟩ : Shape).Idx → Ideal .f32) :
    (⟨2, ![100000, 128]⟩ : Shape).Idx → Ideal .f32 :=
  FloatOps.dotGeneral (DotDims.plain 100000 256 128) none .single a w

/-- The whole product at (r, q): the sum over k of a (r, k) * w (k, q). -/
theorem mm_apply (a : (⟨2, ![100000, 256]⟩ : Shape).Idx → Ideal .f32) (w : (⟨2, ![256, 128]⟩ : Shape).Idx → Ideal .f32)
    (r : Fin 100000) (q : Fin 128) : mm a w (ix2 r q) = ∑ k : Fin 256, a (ix2 r k) * w (ix2 k q) :=
  PlainDot.dotGeneral_apply (M := 100000) (K := 256) (N := 128) none .single a w r q

theorem hz : (![0, 0] : Fin 2 → Nat) = fun _ => 0 := funext fun a => by fin_cases a <;> rfl

/-- What the body stores, at (p, q): the sum over k of the left block at (p, k) times the right block at (k, q). -/
theorem pay_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  exact PlainDot.matmul_zero_apply (M := 5000) (K := 256) (N := 128) none _ _ p q

/-- The body's store at an index of the block is the whole product at the matching index of the array, when the left
    block is the array's rows from `5000 t` on and the right block the whole right operand. -/
theorem pay_blk (x0 : Vec Ideal S5000x256 .f32) (x1 : Vec Ideal S256x128 .f32)
    (a : (⟨2, ![100000, 256]⟩ : Shape).Idx → Ideal .f32) (w : (⟨2, ![256, 128]⟩ : Shape).Idx → Ideal .f32)
    (t : Nat) (j : (⟨2, ![5000, 128]⟩ : Shape).Idx) (i : (⟨2, ![100000, 128]⟩ : Shape).Idx)
    (hi0 : (i 0).val = t * 5000 + (j 0).val) (hi1 : (i 1).val = (j 1).val)
    (hx0 : ∀ (p : Fin 5000) (k : Fin 256) (r : Fin 100000), r.val = t * 5000 + p.val → x0 (ix2 p k) = a (ix2 r k))
    (hx1 : ∀ (k : Fin 256) (q : Fin 128), x1 (ix2 k q) = w (ix2 k q)) :
    k0_pay1 (F := Ideal) x0 x1 j = mm a w i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext hi1
  subst hq
  rw [pay_apply, mm_apply]
  exact Finset.sum_congr rfl fun k _ => by rw [hx0 p k r hi0, hx1 k q']

/-- The printed index maps over the grid: the row-blocked windows are at block (t, 0), the whole one at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole product of the arrays as the launch finds them. -/
theorem flushed_eq (c : Dev nD) (t : Fin cfg0.N) :
    (dat0 V c).flushed 2 t
      = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  show k0_pay1 (F := Ideal) (iblk0 V c 0 t) (iblk0 V c 1 t) j = mm (V c main_arg0) (V c main_arg2) (((cfg0.win 2).blk t).view.emb j)
  refine pay_blk (iblk0 V c 0 t) (iblk0 V c 1 t) (V c main_arg0) (V c main_arg2) t.val j (((cfg0.win 2).blk t).view.emb j) ?_ ?_ ?_ ?_
  · show win0_2.index t (0 : Fin 2) * 5000 + 1 * (j 0).val = t.val * 5000 + (j 0).val
    rw [e4]; omega
  · show win0_2.index t (1 : Fin 2) * 128 + 1 * (j 1).val = (j 1).val
    rw [e5]; omega
  · intro p k r hr
    show V c main_arg0 (((cfg0.win 0).blk t).view.emb (ix2 p k)) = V c main_arg0 (ix2 r k)
    refine congrArg (V c main_arg0) ?_
    funext ax
    refine Fin.ext ?_
    match ax with
    | ⟨0, _⟩ => show win0_0.index t (0 : Fin 2) * 5000 + 1 * p.val = r.val; rw [e0, hr]; omega
    | ⟨1, _⟩ => show win0_0.index t (1 : Fin 2) * 256 + 1 * k.val = k.val; rw [e1]; omega
  · intro k q
    show V c main_arg2 (((cfg0.win 1).blk t).view.emb (ix2 k q)) = V c main_arg2 (ix2 k q)
    refine congrArg (V c main_arg2) ?_
    funext ax
    refine Fin.ext ?_
    match ax with
    | ⟨0, _⟩ => show win0_1.index t (0 : Fin 2) * 256 + 1 * k.val = k.val; rw [e2]; omega
    | ⟨1, _⟩ => show win0_1.index t (1 : Fin 2) * 128 + 1 * q.val = q.val; rw [e3]; omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- THE OUTPUT ARRAY after the launch is the whole product of the two operand arrays as the launch finds them. -/
theorem final (c : Dev nD) : (dat0 V c).arrAt 2 cfg0.N = mm (V c main_arg0) (V c main_arg2) :=
  (dat0 V c).arrAt_eq_of_cover 2 (mm (V c main_arg0) (V c main_arg2)) (fun t _ => flushed_eq V c t) fun i => by
    have h0 : (i 0).val < 100000 := (i 0).isLt
    have h1 : (i 1).val < 128 := (i 1).isLt
    have hN : cfg0.N = 20 := N_0
    refine ⟨⟨(i 0).val / 5000, by rw [hN]; omega⟩, flush0_2 _, ?_⟩
    rw [mem_blk]
    obtain ⟨-, -, -, -, e4, e5⟩ := idx_facts ⟨(i 0).val / 5000, by rw [hN]; omega⟩
    intro a
    match a with
    | ⟨0, _⟩ =>
      show win0_2.index _ (0 : Fin 2) * 5000 ≤ (i 0).val ∧ (i 0).val < win0_2.index _ (0 : Fin 2) * 5000 + 5000
      rw [e4]; show (i 0).val / 5000 * 5000 ≤ (i 0).val ∧ (i 0).val < (i 0).val / 5000 * 5000 + 5000; omega
    | ⟨1, _⟩ =>
      show win0_2.index _ (1 : Fin 2) * 128 ≤ (i 1).val ∧ (i 1).val < win0_2.index _ (1 : Fin 2) * 128 + 128
      rw [e5]; omega

end Cert.KernelIdeal.GcnMM0

end
-- ==== Proof.RegionMM2.lean ====
/-
  Launch 2 of the idealized kernel: a row-blocked matrix product.

  The grid has 20 points; point `t` takes rows `5000 t … 5000 t + 4999` of the left operand `a : [100000, 128]` and the
  whole right operand `w : [128, 128]`, multiplies them on the matrix unit into a zero accumulator (the change of format
  to bf16 before it is the identity on exact values), and writes the [5000, 128] result back to the same rows of the
  output. Element (p, q) of a block's product is the sum over `k` of `a (5000 t + p, k) * w (k, q)`, which is element
  (5000 t + p, q) of the whole product `a · w`; the twenty blocks tile the output, so the output array ends holding
  `a · w`.
-/
import proofs.«109854_j80083960201232_1_alg».proof.Proof.Gen.KernelIdeal.Frame
import proofs.«109854_j80083960201232_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GcnMM2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The whole product `a · w`. -/
def mm (a : (⟨2, ![100000, 128]⟩ : Shape).Idx → Ideal .f32) (w : (⟨2, ![128, 128]⟩ : Shape).Idx → Ideal .f32) :
    (⟨2, ![100000, 128]⟩ : Shape).Idx → Ideal .f32 :=
  FloatOps.dotGeneral (DotDims.plain 100000 128 128) none .single a w

/-- The whole product at (r, q): the sum over k of a (r, k) * w (k, q). -/
theorem mm_apply (a : (⟨2, ![100000, 128]⟩ : Shape).Idx → Ideal .f32) (w : (⟨2, ![128, 128]⟩ : Shape).Idx → Ideal .f32)
    (r : Fin 100000) (q : Fin 128) : mm a w (ix2 r q) = ∑ k : Fin 128, a (ix2 r k) * w (ix2 k q) :=
  PlainDot.dotGeneral_apply (M := 100000) (K := 128) (N := 128) none .single a w r q

theorem hz : (![0, 0] : Fin 2 → Nat) = fun _ => 0 := funext fun a => by fin_cases a <;> rfl

/-- What the body stores, at (p, q): the sum over k of the left block at (p, k) times the right block at (k, q). -/
theorem pay_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  try dsimp only
  rw [shapeCast_self]
  exact PlainDot.matmul_zero_apply (M := 5000) (K := 128) (N := 128) none _ _ p q

/-- The body's store at an index of the block is the whole product at the matching index of the array, when the left
    block is the array's rows from `5000 t` on and the right block the whole right operand. -/
theorem pay_blk (x0 : Vec Ideal S5000x128 .f32) (x1 : Vec Ideal S128x128 .f32)
    (a : (⟨2, ![100000, 128]⟩ : Shape).Idx → Ideal .f32) (w : (⟨2, ![128, 128]⟩ : Shape).Idx → Ideal .f32)
    (t : Nat) (j : (⟨2, ![5000, 128]⟩ : Shape).Idx) (i : (⟨2, ![100000, 128]⟩ : Shape).Idx)
    (hi0 : (i 0).val = t * 5000 + (j 0).val) (hi1 : (i 1).val = (j 1).val)
    (hx0 : ∀ (p : Fin 5000) (k : Fin 128) (r : Fin 100000), r.val = t * 5000 + p.val → x0 (ix2 p k) = a (ix2 r k))
    (hx1 : ∀ (k : Fin 128) (q : Fin 128), x1 (ix2 k q) = w (ix2 k q)) :
    k2_pay1 (F := Ideal) x0 x1 j = mm a w i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext hi1
  subst hq
  rw [pay_apply, mm_apply]
  exact Finset.sum_congr rfl fun k _ => by rw [hx0 p k r hi0, hx1 k q']

/-- The printed index maps over the grid: the row-blocked windows are at block (t, 0), the whole one at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of the whole product of the arrays as the launch finds them. -/
theorem flushed_eq (c : Dev nD) (t : Fin cfg2.N) :
    (dat2 V c).flushed 2 t
      = ((cfg2.win 2).blk t).view.read (Elt Ideal) (mm (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (F := Ideal) (iblk2 V c 0 t) (iblk2 V c 1 t) j = mm (V c main_v45) (V c main_arg4) (((cfg2.win 2).blk t).view.emb j)
  refine pay_blk (iblk2 V c 0 t) (iblk2 V c 1 t) (V c main_v45) (V c main_arg4) t.val j (((cfg2.win 2).blk t).view.emb j) ?_ ?_ ?_ ?_
  · show win2_2.index t (0 : Fin 2) * 5000 + 1 * (j 0).val = t.val * 5000 + (j 0).val
    rw [e4]; omega
  · show win2_2.index t (1 : Fin 2) * 128 + 1 * (j 1).val = (j 1).val
    rw [e5]; omega
  · intro p k r hr
    show V c main_v45 (((cfg2.win 0).blk t).view.emb (ix2 p k)) = V c main_v45 (ix2 r k)
    refine congrArg (V c main_v45) ?_
    funext ax
    refine Fin.ext ?_
    match ax with
    | ⟨0, _⟩ => show win2_0.index t (0 : Fin 2) * 5000 + 1 * p.val = r.val; rw [e0, hr]; omega
    | ⟨1, _⟩ => show win2_0.index t (1 : Fin 2) * 128 + 1 * k.val = k.val; rw [e1]; omega
  · intro k q
    show V c main_arg4 (((cfg2.win 1).blk t).view.emb (ix2 k q)) = V c main_arg4 (ix2 k q)
    refine congrArg (V c main_arg4) ?_
    funext ax
    refine Fin.ext ?_
    match ax with
    | ⟨0, _⟩ => show win2_1.index t (0 : Fin 2) * 128 + 1 * k.val = k.val; rw [e2]; omega
    | ⟨1, _⟩ => show win2_1.index t (1 : Fin 2) * 128 + 1 * q.val = q.val; rw [e3]; omega

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- THE OUTPUT ARRAY after the launch is the whole product of the two operand arrays as the launch finds them. -/
theorem final (c : Dev nD) : (dat2 V c).arrAt 2 cfg2.N = mm (V c main_v45) (V c main_arg4) :=
  (dat2 V c).arrAt_eq_of_cover 2 (mm (V c main_v45) (V c main_arg4)) (fun t _ => flushed_eq V c t) fun i => by
    have h0 : (i 0).val < 100000 := (i 0).isLt
    have h1 : (i 1).val < 128 := (i 1).isLt
    have hN : cfg2.N = 20 := N_2
    refine ⟨⟨(i 0).val / 5000, by rw [hN]; omega⟩, flush2_2 _, ?_⟩
    rw [mem_blk]
    obtain ⟨-, -, -, -, e4, e5⟩ := idx_facts ⟨(i 0).val / 5000, by rw [hN]; omega⟩
    intro a
    match a with
    | ⟨0, _⟩ =>
      show win2_2.index _ (0 : Fin 2) * 5000 ≤ (i 0).val ∧ (i 0).val < win2_2.index _ (0 : Fin 2) * 5000 + 5000
      rw [e4]; show (i 0).val / 5000 * 5000 ≤ (i 0).val ∧ (i 0).val < (i 0).val / 5000 * 5000 + 5000; omega
    | ⟨1, _⟩ =>
      show win2_2.index _ (1 : Fin 2) * 128 ≤ (i 1).val ∧ (i 1).val < win2_2.index _ (1 : Fin 2) * 128 + 128
      rw [e5]; omega

end Cert.KernelIdeal.GcnMM2

end
-- ==== Proof.RegionMM4.lean ====
/-
  Launch 4 of the idealized kernel: a row-blocked matrix product.

  The grid has 20 points; point `t` takes rows `5000 t … 5000 t + 4999` of the left operand `a : [100000, 128]` and the
  whole right operand `w : [128, 128]`, multiplies them on the matrix unit into a zero accumulator (the change of format
  to bf16 before it is the identity on exact values), and writes the [5000, 128] result back to the same rows of the
  output. Element (p, q) of a block's product is the sum over `k` of `a (5000 t + p, k) * w (k, q)`, which is element
  (5000 t + p, q) of the whole product `a · w`; the twenty blocks tile the output, so the output array ends holding
  `a · w`.
-/
import proofs.«109854_j80083960201232_1_alg».proof.Proof.Gen.KernelIdeal.Frame
import proofs.«109854_j80083960201232_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GcnMM4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The whole product `a · w`. -/
def mm (a : (⟨2, ![100000, 128]⟩ : Shape).Idx → Ideal .f32) (w : (⟨2, ![128, 128]⟩ : Shape).Idx → Ideal .f32) :
    (⟨2, ![100000, 128]⟩ : Shape).Idx → Ideal .f32 :=
  FloatOps.dotGeneral (DotDims.plain 100000 128 128) none .single a w

/-- The whole product at (r, q): the sum over k of a (r, k) * w (k, q). -/
theorem mm_apply (a : (⟨2, ![100000, 128]⟩ : Shape).Idx → Ideal .f32) (w : (⟨2, ![128, 128]⟩ : Shape).Idx → Ideal .f32)
    (r : Fin 100000) (q : Fin 128) : mm a w (ix2 r q) = ∑ k : Fin 128, a (ix2 r k) * w (ix2 k q) :=
  PlainDot.dotGeneral_apply (M := 100000) (K := 128) (N := 128) none .single a w r q

theorem hz : (![0, 0] : Fin 2 → Nat) = fun _ => 0 := funext fun a => by fin_cases a <;> rfl

/-- What the body stores, at (p, q): the sum over k of the left block at (p, k) times the right block at (k, q). -/
theorem pay_apply (x0 : Vec Ideal S5000x128 .f32) (x1 : Vec Ideal S128x128 .f32) (p : Fin 5000) (q : Fin 128) :
    k4_pay1 (F := Ideal) x0 x1 (ix2 p q) = ∑ k : Fin 128, x0 (ix2 p k) * x1 (ix2 k q) := by
  unfold k4_pay1
  try dsimp only
  rw [shapeCast_self]
  exact PlainDot.matmul_zero_apply (M := 5000) (K := 128) (N := 128) none _ _ p q

/-- The body's store at an index of the block is the whole product at the matching index of the array, when the left
    block is the array's rows from `5000 t` on and the right block the whole right operand. -/
theorem pay_blk (x0 : Vec Ideal S5000x128 .f32) (x1 : Vec Ideal S128x128 .f32)
    (a : (⟨2, ![100000, 128]⟩ : Shape).Idx → Ideal .f32) (w : (⟨2, ![128, 128]⟩ : Shape).Idx → Ideal .f32)
    (t : Nat) (j : (⟨2, ![5000, 128]⟩ : Shape).Idx) (i : (⟨2, ![100000, 128]⟩ : Shape).Idx)
    (hi0 : (i 0).val = t * 5000 + (j 0).val) (hi1 : (i 1).val = (j 1).val)
    (hx0 : ∀ (p : Fin 5000) (k : Fin 128) (r : Fin 100000), r.val = t * 5000 + p.val → x0 (ix2 p k) = a (ix2 r k))
    (hx1 : ∀ (k : Fin 128) (q : Fin 128), x1 (ix2 k q) = w (ix2 k q)) :
    k4_pay1 (F := Ideal) x0 x1 j = mm a w i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext hi1
  subst hq
  rw [pay_apply, mm_apply]
  exact Finset.sum_congr rfl fun k _ => by rw [hx0 p k r hi0, hx1 k q']

/-- The printed index maps over the grid: the row-blocked windows are at block (t, 0), the whole one at (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- WHAT POINT `t` WRITES BACK is block `t` of the whole product of the arrays as the launch finds them. -/
theorem flushed_eq (c : Dev nD) (t : Fin cfg4.N) :
    (dat4 V c).flushed 2 t
      = ((cfg4.win 2).blk t).view.read (Elt Ideal) (mm (V c main_v45) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx_facts t
  funext j
  show k4_pay1 (F := Ideal) (iblk4 V c 0 t) (iblk4 V c 1 t) j = mm (V c main_v45) (V c main_arg6) (((cfg4.win 2).blk t).view.emb j)
  refine pay_blk (iblk4 V c 0 t) (iblk4 V c 1 t) (V c main_v45) (V c main_arg6) t.val j (((cfg4.win 2).blk t).view.emb j) ?_ ?_ ?_ ?_
  · show win4_2.index t (0 : Fin 2) * 5000 + 1 * (j 0).val = t.val * 5000 + (j 0).val
    rw [e4]; omega
  · show win4_2.index t (1 : Fin 2) * 128 + 1 * (j 1).val = (j 1).val
    rw [e5]; omega
  · intro p k r hr
    show V c main_v45 (((cfg4.win 0).blk t).view.emb (ix2 p k)) = V c main_v45 (ix2 r k)
    refine congrArg (V c main_v45) ?_
    funext ax
    refine Fin.ext ?_
    match ax with
    | ⟨0, _⟩ => show win4_0.index t (0 : Fin 2) * 5000 + 1 * p.val = r.val; rw [e0, hr]; omega
    | ⟨1, _⟩ => show win4_0.index t (1 : Fin 2) * 128 + 1 * k.val = k.val; rw [e1]; omega
  · intro k q
    show V c main_arg6 (((cfg4.win 1).blk t).view.emb (ix2 k q)) = V c main_arg6 (ix2 k q)
    refine congrArg (V c main_arg6) ?_
    funext ax
    refine Fin.ext ?_
    match ax with
    | ⟨0, _⟩ => show win4_1.index t (0 : Fin 2) * 128 + 1 * k.val = k.val; rw [e2]; omega
    | ⟨1, _⟩ => show win4_1.index t (1 : Fin 2) * 128 + 1 * q.val = q.val; rw [e3]; omega

/-- An index of the output array is in point `t`'s block iff each coordinate is in the block's range on its axis. -/
theorem mem_blk (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v62).slice (win4_2.rect t)).set ↔ _
  rw [View.set_slice_whole, Rect.mem_set_unit]
  exact Iff.rfl

/-- THE OUTPUT ARRAY after the launch is the whole product of the two operand arrays as the launch finds them. -/
theorem final (c : Dev nD) : (dat4 V c).arrAt 2 cfg4.N = mm (V c main_v45) (V c main_arg6) :=
  (dat4 V c).arrAt_eq_of_cover 2 (mm (V c main_v45) (V c main_arg6)) (fun t _ => flushed_eq V c t) fun i => by
    have h0 : (i 0).val < 100000 := (i 0).isLt
    have h1 : (i 1).val < 128 := (i 1).isLt
    have hN : cfg4.N = 20 := N_4
    refine ⟨⟨(i 0).val / 5000, by rw [hN]; omega⟩, flush4_2 _, ?_⟩
    rw [mem_blk]
    obtain ⟨-, -, -, -, e4, e5⟩ := idx_facts ⟨(i 0).val / 5000, by rw [hN]; omega⟩
    intro a
    match a with
    | ⟨0, _⟩ =>
      show win4_2.index _ (0 : Fin 2) * 5000 ≤ (i 0).val ∧ (i 0).val < win4_2.index _ (0 : Fin 2) * 5000 + 5000
      rw [e4]; show (i 0).val / 5000 * 5000 ≤ (i 0).val ∧ (i 0).val < (i 0).val / 5000 * 5000 + 5000; omega
    | ⟨1, _⟩ =>
      show win4_2.index _ (1 : Fin 2) * 128 ≤ (i 1).val ∧ (i 1).val < win4_2.index _ (1 : Fin 2) * 128 + 128
      rw [e5]; omega

end Cert.KernelIdeal.GcnMM4

end
-- ==== Proof.LibSoftplus.lean ====
/-
  The two spellings of the softplus agree on every extended real.

  The kernel computes `max y 0 + log1p (exp (0 - |y - 0|))` and the reference `max y 0 + log1p (exp (-|y - 0|))`,
  each behind a select on "`y - 0` differs from itself" (ordered in the kernel, unordered in the reference) whose other
  branch is `y + 0`. On the extended reals nothing differs from itself, so both selects take the second branch, and
  `0 - a = -a`.
-/
import Idealize.ShloMosaic.Lib.ValueIdx
import Idealize.ShloMosaic.PureOps.Ideal.Laws

noncomputable section

namespace Idealize.ShloMosaic.Softplus

open Idealize.ShloMosaic Idealize.ShloMosaic.ValueIdx

/-- The zero literal both programs use. -/
abbrev zc : Ideal .f32 := Scalar.ofBits .f32 0x00000000#32

theorem zc_eq : (zc : EReal) = 0 := Ideal.ofBits_zero_f32

/-- The kernel's spelling, on one element. -/
def spK (y : Ideal .f32) : Ideal .f32 :=
  Scalar.select (FloatOps.cmpf .one (FloatOps.subf y zc) (FloatOps.subf y zc)) (FloatOps.addf y zc)
    (FloatOps.addf (FloatOps.maximumf y zc)
      (FloatOps.log1p (FloatOps.exp (FloatOps.subf zc (FloatOps.absf (FloatOps.subf y zc))))))

/-- The reference's spelling, on one element. -/
def spR (y : Ideal .f32) : Ideal .f32 :=
  Scalar.select (FloatOps.cmpf .une (FloatOps.subf y zc) (FloatOps.subf y zc)) (FloatOps.addf y zc)
    (FloatOps.addf (FloatOps.maximumf y zc)
      (FloatOps.hostUnary .log1p (FloatOps.hostUnary .exp (FloatOps.hostNegf (FloatOps.hostAbsf (FloatOps.subf y zc))))))

/-- Nothing differs from itself: the ordered comparison … -/
theorem cmp_one_self (a : EReal) : Ideal.cmp .one a a = 0#1 := by simp [Ideal.cmp]
/-- … and the unordered one. -/
theorem cmp_une_self (a : EReal) : Ideal.cmp .une a a = 0#1 := by simp [Ideal.cmp]

theorem zero_sub' (a : EReal) : (0 : EReal) - a = -a := by rw [sub_eq_add_neg, zero_add]

/-- THE TWO SPELLINGS ARE ONE FUNCTION. -/
theorem spK_eq_spR (y : Ideal .f32) : spK y = spR y := by
  unfold spK spR
  rw [Ideal.cmpf_def, Ideal.cmpf_def, cmp_one_self, cmp_une_self, select_zero, select_zero]
  simp only [Ideal.subf_def, Ideal.addf_def, Ideal.maximumf_def, Ideal.exp_def, Ideal.log1p_def, Ideal.hostUnary_exp_def,
    Ideal.hostUnary_log1p_def, Ideal.hostNegf_def, Ideal.negf_def, Ideal.hostAbsf_def]
  rw [show ((zc : Ideal .f32) : EReal) = 0 from zc_eq, zero_sub']

end Idealize.ShloMosaic.Softplus

end
-- ==== Proof.RegionBA1.lean ====
/-
  Launch 1 of the idealized kernel: bias and activation, row block by row block.

  The grid has 10 points; point `t` takes rows `10000 t … 10000 t + 9999` of the aggregate `agg : [100000, 128]` and the
  bias row `b : [1, 128]`, and writes `max (agg + b) 0` back to the same rows of the output. The operation is pointwise in
  the aggregate and reads the bias at the element's column, and the ten blocks tile the output, so the output array ends
  holding that function of the two arrays, index by index.
-/
import proofs.«109854_j80083960201232_1_alg».proof.Proof.Gen.KernelIdeal.Frame
import proofs.«109854_j80083960201232_1_alg».proof.Proof.LibSoftplus
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GcnBA1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The activation, on one element. -/
def act (y : Ideal .f32) : Ideal .f32 := FloatOps.maximumf y (Scalar.ofBits .f32 0x00000000#32)

/-- The output as one function of the aggregate and the bias row. -/
def ba (agg : (⟨2, ![100000, 128]⟩ : Shape).Idx → Ideal .f32) (b : (⟨2, ![1, 128]⟩ : Shape).Idx → Ideal .f32) :
    (⟨2, ![100000, 128]⟩ : Shape).Idx → Ideal .f32 :=
  fun i => act (FloatOps.addf (agg i) (b (ix2 (0 : Fin 1) (i 1 : Fin 128))))

theorem ba_apply (agg : (⟨2, ![100000, 128]⟩ : Shape).Idx → Ideal .f32) (b : (⟨2, ![1, 128]⟩ : Shape).Idx → Ideal .f32)
    (r : Fin 100000) (q : Fin 128) : ba agg b (ix2 r q) = act (FloatOps.addf (agg (ix2 r q)) (b (ix2 (0 : Fin 1) q))) := rfl

theorem hz : (![0, 0] : Fin 2 → Nat) = fun _ => 0 := funext fun a => by fin_cases a <;> rfl

/-- What the body stores, at (p, q): the activation of the aggregate block at (p, q) plus the bias at column q. -/
theorem pay_apply (x0 : Vec Ideal S10000x128 .f32) (x1 : Vec Ideal S1x128 .f32) (p : Fin 10000) (q : Fin 128) :
    k1_pay1 (F := Ideal) x0 x1 (ix2 p q) = act (FloatOps.addf (x0 (ix2 p q)) (x1 (ix2 (0 : Fin 1) q))) := by
  unfold k1_pay1
  try dsimp only
  rw [shapeCast_self, shapeCast_self]
  exact congrArg (fun z : Ideal .f32 => act (FloatOps.addf (F := Ideal) (x0 (ix2 p q)) z))
    (broadcastTo_1b_ab_apply (α := Ideal .f32) x1 broadcasts_S1x128_S10000x128 p q)

/-- The body's store at an index of the block is the output function at the matching index of the array, when the
    aggregate block is the array's rows from `10000 t` on and the bias block the bias row. -/
theorem pay_blk (x0 : Vec Ideal S10000x128 .f32) (x1 : Vec Ideal S1x128 .f32)
    (agg : (⟨2, ![100000, 128]⟩ : Shape).Idx → Ideal .f32) (b : (⟨2, ![1, 128]⟩ : Shape).Idx → Ideal .f32)
    (t : Nat) (j : (⟨2, ![10000, 128]⟩ : Shape).Idx) (i : (⟨2, ![100000, 128]⟩ : Shape).Idx)
    (hi0 : (i 0).val = t * 10000 + (j 0).val) (hi1 : (i 1).val = (j 1).val)
    (hx0 : ∀ (p : Fin 10000) (q : Fin 128) (r : Fin 100000), r.val = t * 10000 + p.val → x0 (ix2 p q) = agg (ix2 r q))
    (hx1 : ∀ (q : Fin 128), x1 (ix2 (0 : Fin 1) q) = b (ix2 (0 : Fin 1) q)) :
    k1_pay1 (F := Ideal) x0 x1 j = ba agg b i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext hi1
  subst hq
  rw [pay_apply, ba_apply, hx0 p q' r hi0, hx1 q']

/-- The printed index maps over the grid: the row-blocked windows are at block (t, 0), the bias row at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the output function of the arrays as the launch finds them. -/
theorem flushed_eq (c : Dev nD) (t : Fin cfg1.N) :
    (dat1 V c).flushed 2 t
      = ((cfg1.win 2).blk t).view.read (Elt Ideal) (ba (V c main_v43) (V c main_v44)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨e0, e1, e2, e3, e4, e5⟩ := idx_facts t
  funext j
  show k1_pay1 (F := Ideal) (iblk1 V c 0 t) (iblk1 V c 1 t) j = ba (V c main_v43) (V c main_v44) (((cfg1.win 2).blk t).view.emb j)
  refine pay_blk (iblk1 V c 0 t) (iblk1 V c 1 t) (V c main_v43) (V c main_v44) t.val j (((cfg1.win 2).blk t).view.emb j) ?_ ?_ ?_ ?_
  · show win1_2.index t (0 : Fin 2) * 10000 + 1 * (j 0).val = t.val * 10000 + (j 0).val
    rw [e4]; omega
  · show win1_2.index t (1 : Fin 2) * 128 + 1 * (j 1).val = (j 1).val
    rw [e5]; omega
  · intro p q r hr
    show V c main_v43 (((cfg1.win 0).blk t).view.emb (ix2 p q)) = V c main_v43 (ix2 r q)
    refine congrArg (V c main_v43) ?_
    funext ax
    refine Fin.ext ?_
    match ax with
    | ⟨0, _⟩ => show win1_0.index t (0 : Fin 2) * 10000 + 1 * p.val = r.val; rw [e0, hr]; omega
    | ⟨1, _⟩ => show win1_0.index t (1 : Fin 2) * 128 + 1 * q.val = q.val; rw [e1]; omega
  · intro q
    show V c main_v44 (((cfg1.win 1).blk t).view.emb (ix2 (0 : Fin 1) q)) = V c main_v44 (ix2 (0 : Fin 1) q)
    refine congrArg (V c main_v44) ?_
    funext ax
    refine Fin.ext ?_
    match ax with
    | ⟨0, _⟩ => show win1_1.index t (0 : Fin 2) * 1 + 1 * (0 : Fin 1).val = (0 : Fin 1).val; rw [e2]; rfl
    | ⟨1, _⟩ => show win1_1.index t (1 : Fin 2) * 128 + 1 * q.val = q.val; rw [e3]; omega

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v45).slice (win1_2.rect t)).set ↔ _
  rw [View.set_slice_whole, Rect.mem_set_unit]
  exact Iff.rfl

/-- THE OUTPUT ARRAY after the launch is the output function of the two arrays as the launch finds them. -/
theorem final (c : Dev nD) : (dat1 V c).arrAt 2 cfg1.N = ba (V c main_v43) (V c main_v44) :=
  (dat1 V c).arrAt_eq_of_cover 2 (ba (V c main_v43) (V c main_v44)) (fun t _ => flushed_eq V c t) fun i => by
    have h0 : (i 0).val < 100000 := (i 0).isLt
    have h1 : (i 1).val < 128 := (i 1).isLt
    have hN : cfg1.N = 10 := N_1
    refine ⟨⟨(i 0).val / 10000, by rw [hN]; omega⟩, flush1_2 _, ?_⟩
    rw [mem_blk]
    obtain ⟨-, -, -, -, e4, e5⟩ := idx_facts ⟨(i 0).val / 10000, by rw [hN]; omega⟩
    intro a
    match a with
    | ⟨0, _⟩ =>
      show win1_2.index _ (0 : Fin 2) * 10000 ≤ (i 0).val ∧ (i 0).val < win1_2.index _ (0 : Fin 2) * 10000 + 10000
      rw [e4]; show (i 0).val / 10000 * 10000 ≤ (i 0).val ∧ (i 0).val < (i 0).val / 10000 * 10000 + 10000; omega
    | ⟨1, _⟩ =>
      show win1_2.index _ (1 : Fin 2) * 128 ≤ (i 1).val ∧ (i 1).val < win1_2.index _ (1 : Fin 2) * 128 + 128
      rw [e5]; omega

end Cert.KernelIdeal.GcnBA1

end
-- ==== Proof.RegionBA3.lean ====
/-
  Launch 3 of the idealized kernel: bias and activation, row block by row block.

  The grid has 10 points; point `t` takes rows `10000 t … 10000 t + 9999` of the aggregate `agg : [100000, 128]` and the
  bias row `b : [1, 128]`, and writes `agg + b` back to the same rows of the output. The operation is pointwise in
  the aggregate and reads the bias at the element's column, and the ten blocks tile the output, so the output array ends
  holding that function of the two arrays, index by index.
-/
import proofs.«109854_j80083960201232_1_alg».proof.Proof.Gen.KernelIdeal.Frame
import proofs.«109854_j80083960201232_1_alg».proof.Proof.LibSoftplus
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GcnBA3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The activation, on one element. -/
def act (y : Ideal .f32) : Ideal .f32 := y

/-- The output as one function of the aggregate and the bias row. -/
def ba (agg : (⟨2, ![100000, 128]⟩ : Shape).Idx → Ideal .f32) (b : (⟨2, ![1, 128]⟩ : Shape).Idx → Ideal .f32) :
    (⟨2, ![100000, 128]⟩ : Shape).Idx → Ideal .f32 :=
  fun i => act (FloatOps.addf (agg i) (b (ix2 (0 : Fin 1) (i 1 : Fin 128))))

theorem ba_apply (agg : (⟨2, ![100000, 128]⟩ : Shape).Idx → Ideal .f32) (b : (⟨2, ![1, 128]⟩ : Shape).Idx → Ideal .f32)
    (r : Fin 100000) (q : Fin 128) : ba agg b (ix2 r q) = act (FloatOps.addf (agg (ix2 r q)) (b (ix2 (0 : Fin 1) q))) := rfl

theorem hz : (![0, 0] : Fin 2 → Nat) = fun _ => 0 := funext fun a => by fin_cases a <;> rfl

/-- What the body stores, at (p, q): the activation of the aggregate block at (p, q) plus the bias at column q. -/
theorem pay_apply (x0 : Vec Ideal S10000x128 .f32) (x1 : Vec Ideal S1x128 .f32) (p : Fin 10000) (q : Fin 128) :
    k3_pay1 (F := Ideal) x0 x1 (ix2 p q) = act (FloatOps.addf (x0 (ix2 p q)) (x1 (ix2 (0 : Fin 1) q))) := by
  unfold k3_pay1
  try dsimp only
  rw [shapeCast_self, shapeCast_self]
  exact congrArg (fun z : Ideal .f32 => act (FloatOps.addf (F := Ideal) (x0 (ix2 p q)) z))
    (broadcastTo_1b_ab_apply (α := Ideal .f32) x1 broadcasts_S1x128_S10000x128 p q)

/-- The body's store at an index of the block is the output function at the matching index of the array, when the
    aggregate block is the array's rows from `10000 t` on and the bias block the bias row. -/
theorem pay_blk (x0 : Vec Ideal S10000x128 .f32) (x1 : Vec Ideal S1x128 .f32)
    (agg : (⟨2, ![100000, 128]⟩ : Shape).Idx → Ideal .f32) (b : (⟨2, ![1, 128]⟩ : Shape).Idx → Ideal .f32)
    (t : Nat) (j : (⟨2, ![10000, 128]⟩ : Shape).Idx) (i : (⟨2, ![100000, 128]⟩ : Shape).Idx)
    (hi0 : (i 0).val = t * 10000 + (j 0).val) (hi1 : (i 1).val = (j 1).val)
    (hx0 : ∀ (p : Fin 10000) (q : Fin 128) (r : Fin 100000), r.val = t * 10000 + p.val → x0 (ix2 p q) = agg (ix2 r q))
    (hx1 : ∀ (q : Fin 128), x1 (ix2 (0 : Fin 1) q) = b (ix2 (0 : Fin 1) q)) :
    k3_pay1 (F := Ideal) x0 x1 j = ba agg b i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext hi1
  subst hq
  rw [pay_apply, ba_apply, hx0 p q' r hi0, hx1 q']

/-- The printed index maps over the grid: the row-blocked windows are at block (t, 0), the bias row at (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is block `t` of the output function of the arrays as the launch finds them. -/
theorem flushed_eq (c : Dev nD) (t : Fin cfg3.N) :
    (dat3 V c).flushed 2 t
      = ((cfg3.win 2).blk t).view.read (Elt Ideal) (ba (V c main_v59) (V c main_v60)) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  obtain ⟨e0, e1, e2, e3, e4, e5⟩ := idx_facts t
  funext j
  show k3_pay1 (F := Ideal) (iblk3 V c 0 t) (iblk3 V c 1 t) j = ba (V c main_v59) (V c main_v60) (((cfg3.win 2).blk t).view.emb j)
  refine pay_blk (iblk3 V c 0 t) (iblk3 V c 1 t) (V c main_v59) (V c main_v60) t.val j (((cfg3.win 2).blk t).view.emb j) ?_ ?_ ?_ ?_
  · show win3_2.index t (0 : Fin 2) * 10000 + 1 * (j 0).val = t.val * 10000 + (j 0).val
    rw [e4]; omega
  · show win3_2.index t (1 : Fin 2) * 128 + 1 * (j 1).val = (j 1).val
    rw [e5]; omega
  · intro p q r hr
    show V c main_v59 (((cfg3.win 0).blk t).view.emb (ix2 p q)) = V c main_v59 (ix2 r q)
    refine congrArg (V c main_v59) ?_
    funext ax
    refine Fin.ext ?_
    match ax with
    | ⟨0, _⟩ => show win3_0.index t (0 : Fin 2) * 10000 + 1 * p.val = r.val; rw [e0, hr]; omega
    | ⟨1, _⟩ => show win3_0.index t (1 : Fin 2) * 128 + 1 * q.val = q.val; rw [e1]; omega
  · intro q
    show V c main_v60 (((cfg3.win 1).blk t).view.emb (ix2 (0 : Fin 1) q)) = V c main_v60 (ix2 (0 : Fin 1) q)
    refine congrArg (V c main_v60) ?_
    funext ax
    refine Fin.ext ?_
    match ax with
    | ⟨0, _⟩ => show win3_1.index t (0 : Fin 2) * 1 + 1 * (0 : Fin 1).val = (0 : Fin 1).val; rw [e2]; rfl
    | ⟨1, _⟩ => show win3_1.index t (1 : Fin 2) * 128 + 1 * q.val = q.val; rw [e3]; omega

/-- An index of the output array is in point `t`'s block iff each coordinate is in the block's range on its axis. -/
theorem mem_blk (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v61).slice (win3_2.rect t)).set ↔ _
  rw [View.set_slice_whole, Rect.mem_set_unit]
  exact Iff.rfl

/-- THE OUTPUT ARRAY after the launch is the output function of the two arrays as the launch finds them. -/
theorem final (c : Dev nD) : (dat3 V c).arrAt 2 cfg3.N = ba (V c main_v59) (V c main_v60) :=
  (dat3 V c).arrAt_eq_of_cover 2 (ba (V c main_v59) (V c main_v60)) (fun t _ => flushed_eq V c t) fun i => by
    have h0 : (i 0).val < 100000 := (i 0).isLt
    have h1 : (i 1).val < 128 := (i 1).isLt
    have hN : cfg3.N = 10 := N_3
    refine ⟨⟨(i 0).val / 10000, by rw [hN]; omega⟩, flush3_2 _, ?_⟩
    rw [mem_blk]
    obtain ⟨-, -, -, -, e4, e5⟩ := idx_facts ⟨(i 0).val / 10000, by rw [hN]; omega⟩
    intro a
    match a with
    | ⟨0, _⟩ =>
      show win3_2.index _ (0 : Fin 2) * 10000 ≤ (i 0).val ∧ (i 0).val < win3_2.index _ (0 : Fin 2) * 10000 + 10000
      rw [e4]; show (i 0).val / 10000 * 10000 ≤ (i 0).val ∧ (i 0).val < (i 0).val / 10000 * 10000 + 10000; omega
    | ⟨1, _⟩ =>
      show win3_2.index _ (1 : Fin 2) * 128 ≤ (i 1).val ∧ (i 1).val < win3_2.index _ (1 : Fin 2) * 128 + 128
      rw [e5]; omega

end Cert.KernelIdeal.GcnBA3

end
-- ==== Proof.RegionBA5.lean ====
/-
  Launch 5 of the idealized kernel: bias and activation, row block by row block.

  The grid has 10 points; point `t` takes rows `10000 t … 10000 t + 9999` of the aggregate `agg : [100000, 128]` and the
  bias row `b : [1, 128]`, and writes the softplus of `agg + b` (the kernel's spelling: `max y 0 + log1p (exp (0 - |y - 0|))` behind a guard that never fires) plus the constant 1e-7 back to the same rows of the output. The operation is pointwise in
  the aggregate and reads the bias at the element's column, and the ten blocks tile the output, so the output array ends
  holding that function of the two arrays, index by index.
-/
import proofs.«109854_j80083960201232_1_alg».proof.Proof.Gen.KernelIdeal.Frame
import proofs.«109854_j80083960201232_1_alg».proof.Proof.LibSoftplus
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GcnBA5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The activation, on one element. -/
def act (y : Ideal .f32) : Ideal .f32 := FloatOps.addf (Softplus.spK y) (Scalar.ofBits .f32 0x33D6BF95#32)

/-- The output as one function of the aggregate and the bias row. -/
def ba (agg : (⟨2, ![100000, 128]⟩ : Shape).Idx → Ideal .f32) (b : (⟨2, ![1, 128]⟩ : Shape).Idx → Ideal .f32) :
    (⟨2, ![100000, 128]⟩ : Shape).Idx → Ideal .f32 :=
  fun i => act (FloatOps.addf (agg i) (b (ix2 (0 : Fin 1) (i 1 : Fin 128))))

theorem ba_apply (agg : (⟨2, ![100000, 128]⟩ : Shape).Idx → Ideal .f32) (b : (⟨2, ![1, 128]⟩ : Shape).Idx → Ideal .f32)
    (r : Fin 100000) (q : Fin 128) : ba agg b (ix2 r q) = act (FloatOps.addf (agg (ix2 r q)) (b (ix2 (0 : Fin 1) q))) := rfl

theorem hz : (![0, 0] : Fin 2 → Nat) = fun _ => 0 := funext fun a => by fin_cases a <;> rfl

/-- What the body stores, at (p, q): the activation of the aggregate block at (p, q) plus the bias at column q. -/
theorem pay_apply (x0 : Vec Ideal S10000x128 .f32) (x1 : Vec Ideal S1x128 .f32) (p : Fin 10000) (q : Fin 128) :
    k5_pay1 (F := Ideal) x0 x1 (ix2 p q) = act (FloatOps.addf (x0 (ix2 p q)) (x1 (ix2 (0 : Fin 1) q))) := by
  unfold k5_pay1
  try dsimp only
  rw [shapeCast_self, shapeCast_self]
  exact congrArg (fun z : Ideal .f32 => act (FloatOps.addf (F := Ideal) (x0 (ix2 p q)) z))
    (broadcastTo_1b_ab_apply (α := Ideal .f32) x1 broadcasts_S1x128_S10000x128 p q)

/-- The body's store at an index of the block is the output function at the matching index of the array, when the
    aggregate block is the array's rows from `10000 t` on and the bias block the bias row. -/
theorem pay_blk (x0 : Vec Ideal S10000x128 .f32) (x1 : Vec Ideal S1x128 .f32)
    (agg : (⟨2, ![100000, 128]⟩ : Shape).Idx → Ideal .f32) (b : (⟨2, ![1, 128]⟩ : Shape).Idx → Ideal .f32)
    (t : Nat) (j : (⟨2, ![10000, 128]⟩ : Shape).Idx) (i : (⟨2, ![100000, 128]⟩ : Shape).Idx)
    (hi0 : (i 0).val = t * 10000 + (j 0).val) (hi1 : (i 1).val = (j 1).val)
    (hx0 : ∀ (p : Fin 10000) (q : Fin 128) (r : Fin 100000), r.val = t * 10000 + p.val → x0 (ix2 p q) = agg (ix2 r q))
    (hx1 : ∀ (q : Fin 128), x1 (ix2 (0 : Fin 1) q) = b (ix2 (0 : Fin 1) q)) :
    k5_pay1 (F := Ideal) x0 x1 j = ba agg b i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext hi1
  subst hq
  rw [pay_apply, ba_apply, hx0 p q' r hi0, hx1 q']

/-- The printed index maps over the grid: the row-blocked windows are at block (t, 0), the bias row at (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- WHAT POINT `t` WRITES BACK is block `t` of the output function of the arrays as the launch finds them. -/
theorem flushed_eq (c : Dev nD) (t : Fin cfg5.N) :
    (dat5 V c).flushed 2 t
      = ((cfg5.win 2).blk t).view.read (Elt Ideal) (ba (V c main_v75) (V c main_v76)) := by
  show (cfg5.win 2).cut (grid5.coords t) ((dat5 V c).after 2 t) = _
  rw [after5_2]
  unfold out5_2
  rw [View.canon_unit_zero hz]
  simp only [View.ld_unit_zero (S := S10000x128) hz, View.ld_unit_zero (S := S1x128) hz]
  obtain ⟨e0, e1, e2, e3, e4, e5⟩ := idx_facts t
  funext j
  show k5_pay1 (F := Ideal) (iblk5 V c 0 t) (iblk5 V c 1 t) j = ba (V c main_v75) (V c main_v76) (((cfg5.win 2).blk t).view.emb j)
  refine pay_blk (iblk5 V c 0 t) (iblk5 V c 1 t) (V c main_v75) (V c main_v76) t.val j (((cfg5.win 2).blk t).view.emb j) ?_ ?_ ?_ ?_
  · show win5_2.index t (0 : Fin 2) * 10000 + 1 * (j 0).val = t.val * 10000 + (j 0).val
    rw [e4]; omega
  · show win5_2.index t (1 : Fin 2) * 128 + 1 * (j 1).val = (j 1).val
    rw [e5]; omega
  · intro p q r hr
    show V c main_v75 (((cfg5.win 0).blk t).view.emb (ix2 p q)) = V c main_v75 (ix2 r q)
    refine congrArg (V c main_v75) ?_
    funext ax
    refine Fin.ext ?_
    match ax with
    | ⟨0, _⟩ => show win5_0.index t (0 : Fin 2) * 10000 + 1 * p.val = r.val; rw [e0, hr]; omega
    | ⟨1, _⟩ => show win5_0.index t (1 : Fin 2) * 128 + 1 * q.val = q.val; rw [e1]; omega
  · intro q
    show V c main_v76 (((cfg5.win 1).blk t).view.emb (ix2 (0 : Fin 1) q)) = V c main_v76 (ix2 (0 : Fin 1) q)
    refine congrArg (V c main_v76) ?_
    funext ax
    refine Fin.ext ?_
    match ax with
    | ⟨0, _⟩ => show win5_1.index t (0 : Fin 2) * 1 + 1 * (0 : Fin 1).val = (0 : Fin 1).val; rw [e2]; rfl
    | ⟨1, _⟩ => show win5_1.index t (1 : Fin 2) * 128 + 1 * q.val = q.val; rw [e3]; omega

/-- An index of the output array is in point `t`'s block iff each coordinate is in the block's range on its axis. -/
theorem mem_blk (t : Fin cfg5.N) (i : S100000x128.Idx) :
    i ∈ ((cfg5.win 2).blk t).view.set ↔ ∀ a : Fin 2, win5_2.index t a * S10000x128.size a ≤ (i a).val
      ∧ (i a).val < win5_2.index t a * S10000x128.size a + S10000x128.size a := by
  show i ∈ ((View.whole main_v77).slice (win5_2.rect t)).set ↔ _
  rw [View.set_slice_whole, Rect.mem_set_unit]
  exact Iff.rfl

/-- THE OUTPUT ARRAY after the launch is the output function of the two arrays as the launch finds them. -/
theorem final (c : Dev nD) : (dat5 V c).arrAt 2 cfg5.N = ba (V c main_v75) (V c main_v76) :=
  (dat5 V c).arrAt_eq_of_cover 2 (ba (V c main_v75) (V c main_v76)) (fun t _ => flushed_eq V c t) fun i => by
    have h0 : (i 0).val < 100000 := (i 0).isLt
    have h1 : (i 1).val < 128 := (i 1).isLt
    have hN : cfg5.N = 10 := N_5
    refine ⟨⟨(i 0).val / 10000, by rw [hN]; omega⟩, flush5_2 _, ?_⟩
    rw [mem_blk]
    obtain ⟨-, -, -, -, e4, e5⟩ := idx_facts ⟨(i 0).val / 10000, by rw [hN]; omega⟩
    intro a
    match a with
    | ⟨0, _⟩ =>
      show win5_2.index _ (0 : Fin 2) * 10000 ≤ (i 0).val ∧ (i 0).val < win5_2.index _ (0 : Fin 2) * 10000 + 10000
      rw [e4]; show (i 0).val / 10000 * 10000 ≤ (i 0).val ∧ (i 0).val < (i 0).val / 10000 * 10000 + 10000; omega
    | ⟨1, _⟩ =>
      show win5_2.index _ (1 : Fin 2) * 128 ≤ (i 1).val ∧ (i 1).val < win5_2.index _ (1 : Fin 2) * 128 + 128
      rw [e5]; omega

end Cert.KernelIdeal.GcnBA5

end
-- ==== Proof.Bridge.lean ====
/-
  The launches' functions are the network's.

  A matrix-product launch leaves `a · w`, which is the host's `dot_general` of the same two arrays. A bias-and-activation
  launch leaves `act (agg + b)` with the bias read at the element's column: the bias row is the bias vector with a
  unit axis in front, and the network broadcasts the same vector along the rows, so the two read the same entry. The
  activations are `max y 0` against the zero array, the identity, and the softplus, whose two spellings are one
  function on the extended reals, plus the same constant.
-/
import proofs.«109854_j80083960201232_1_alg».proof.Proof.RegionMM0
import proofs.«109854_j80083960201232_1_alg».proof.Proof.RegionMM2
import proofs.«109854_j80083960201232_1_alg».proof.Proof.RegionMM4
import proofs.«109854_j80083960201232_1_alg».proof.Proof.RegionBA1
import proofs.«109854_j80083960201232_1_alg».proof.Proof.RegionBA3
import proofs.«109854_j80083960201232_1_alg».proof.Proof.RegionBA5
import proofs.«109854_j80083960201232_1_alg».proof.Proof.GcnSpec
import proofs.«109854_j80083960201232_1_alg».proof.Proof.LibSoftplus
import Idealize.ShloMosaic.Lib.Pipeline.Value
import Idealize.ShloMosaic.Lib.ValueLayout

set_option maxRecDepth 16384

noncomputable section

namespace Cert.Gcn.Bridge

open Cert.ReferenceIdeal Cert.ReferenceIdeal.Gen Cert.Gcn
open Idealize.ShloMosaic Idealize.ShloMosaic.ValueIdx

/-- The first product is the host's. -/
theorem mm0_eq (a : FVec Ideal S100000x256 .f32) (w : FVec Ideal S256x128 .f32) :
    Cert.KernelIdeal.GcnMM0.mm a w = Host.dotGeneral (φ₁ := .f32) (φ₂ := .f32) dot_S100000x256_S256x128_S100000x128_1_0_0_1_n_n none a w := rfl

/-- The second and third products are the host's. -/
theorem mm2_eq (a : FVec Ideal S100000x128 .f32) (w : FVec Ideal S128x128 .f32) :
    Cert.KernelIdeal.GcnMM2.mm a w = Host.dotGeneral (φ₁ := .f32) (φ₂ := .f32) dot_S100000x128_S128x128_S100000x128_1_0_0_1_n_n none a w := rfl
theorem mm4_eq (a : FVec Ideal S100000x128 .f32) (w : FVec Ideal S128x128 .f32) :
    Cert.KernelIdeal.GcnMM4.mm a w = Host.dotGeneral (φ₁ := .f32) (φ₂ := .f32) dot_S100000x128_S128x128_S100000x128_1_0_0_1_n_n none a w := rfl

/-- The zero array holds the zero literal everywhere. -/
theorem zeros_apply (j : S100000x128.Idx) : zerosS (F := Ideal) j = Softplus.zc :=
  (broadcastInDim_apply _ _ _ j ix0 (fun a => a.elim0)).trans rfl

theorem zeros_eq : zerosS (F := Ideal) = fun _ => Softplus.zc := funext zeros_apply

/-- The bias broadcast along the rows holds, at (r, q), the bias at q. -/
theorem bias_apply (b : FVec Ideal S128 .f32) (r : Fin 100000) (q : Fin 128) :
    biasS (F := Ideal) b (ix2 r q) = b (ix1 q) := by
  unfold biasS
  refine (broadcastInDim_apply _ _ _ (ix2 r q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

/-- Bias and `max · 0`. -/
theorem relu_eq (agg : FVec Ideal S100000x128 .f32) (b : FVec Ideal S128 .f32)
    (h : (⟨1, ![128]⟩ : Shape).ShapeCasts ⟨2, ![1, 128]⟩) :
    Cert.KernelIdeal.GcnBA1.ba agg (shapeCast ⟨2, ![1, 128]⟩ b h) = reluS (F := Ideal) (addf agg (biasS (F := Ideal) b)) := by
  funext i
  obtain ⟨r, q, rfl⟩ : ∃ (r : Fin 100000) (q : Fin 128), i = ix2 r q := ⟨i 0, i 1, eq_ix2 i⟩
  rw [Cert.KernelIdeal.GcnBA1.ba_apply, shapeCast_a_1a_apply]
  show _ = FloatOps.maximumf (F := Ideal) (φ := .f32) (FloatOps.addf (F := Ideal) (φ := .f32) (agg (ix2 r q)) (biasS (F := Ideal) b (ix2 r q))) (zerosS (F := Ideal) (ix2 r q))
  rw [bias_apply, zeros_apply]
  rfl

/-- Bias alone. -/
theorem id_eq (agg : FVec Ideal S100000x128 .f32) (b : FVec Ideal S128 .f32)
    (h : (⟨1, ![128]⟩ : Shape).ShapeCasts ⟨2, ![1, 128]⟩) :
    Cert.KernelIdeal.GcnBA3.ba agg (shapeCast ⟨2, ![1, 128]⟩ b h) = addf agg (biasS (F := Ideal) b) := by
  funext i
  obtain ⟨r, q, rfl⟩ : ∃ (r : Fin 100000) (q : Fin 128), i = ix2 r q := ⟨i 0, i 1, eq_ix2 i⟩
  rw [Cert.KernelIdeal.GcnBA3.ba_apply, shapeCast_a_1a_apply]
  show _ = FloatOps.addf (F := Ideal) (φ := .f32) (agg (ix2 r q)) (biasS (F := Ideal) b (ix2 r q))
  rw [bias_apply]
  rfl

/-- The softplus of a value, in the network's spelling, is the reference spelling on each element. -/
theorem softplus_apply (y : FVec Ideal S100000x128 .f32) (i : S100000x128.Idx) :
    softplusS (F := Ideal) y i = Softplus.spR (y i) := by
  unfold softplusS
  rw [zeros_eq]
  rfl

/-- Bias, softplus and the added constant. -/
theorem sp_eq (agg : FVec Ideal S100000x128 .f32) (b : FVec Ideal S128 .f32)
    (h : (⟨1, ![128]⟩ : Shape).ShapeCasts ⟨2, ![1, 128]⟩) :
    Cert.KernelIdeal.GcnBA5.ba agg (shapeCast ⟨2, ![1, 128]⟩ b h)
      = addf (softplusS (F := Ideal) (addf agg (biasS (F := Ideal) b)))
          (broadcastInDim S100000x128 ![] bcast_S_S100000x128 (constant S_ .f32 0x33D6BF95#32)) := by
  funext i
  obtain ⟨r, q, rfl⟩ : ∃ (r : Fin 100000) (q : Fin 128), i = ix2 r q := ⟨i 0, i 1, eq_ix2 i⟩
  rw [Cert.KernelIdeal.GcnBA5.ba_apply, shapeCast_a_1a_apply]
  show _ = FloatOps.addf (F := Ideal) (φ := .f32) (softplusS (F := Ideal) (addf agg (biasS (F := Ideal) b)) (ix2 r q))
    (broadcastInDim S100000x128 ![] bcast_S_S100000x128 (constant (F := Ideal) S_ .f32 0x33D6BF95#32) (ix2 r q))
  rw [softplus_apply, broadcastInDim_apply _ _ _ (ix2 r q) ix0 (fun a => a.elim0)]
  show _ = FloatOps.addf (F := Ideal) (φ := .f32) (Softplus.spR (FloatOps.addf (F := Ideal) (φ := .f32) (agg (ix2 r q)) (biasS (F := Ideal) b (ix2 r q)))) _
  rw [bias_apply, ← Softplus.spK_eq_spR]
  rfl

end Cert.Gcn.Bridge

end
-- ==== Proof.KernelChain.lean ====
/-
  The idealized kernel's two results are the network's functions of the arguments.

  The buffer contents at each boundary of @main's twelve segments are followed from the launch memory to the return:
  the edge ends and the edge weights are computed before the first launch and never written again; each
  matrix-product launch leaves the product of its two operand arrays, each convolution stretch the aggregate of that
  product, each bias-and-activation launch its function of the aggregate and the bias; a launch leaves every array that
  is not one of its own as it found it, and a host stretch every buffer it does not write. The first result is the
  fourth launch's output, the second the sixth's.
-/
import proofs.«109854_j80083960201232_1_alg».proof.Proof.Gen.KernelIdeal.Frame
import proofs.«109854_j80083960201232_1_alg».proof.Proof.KernelHost
import proofs.«109854_j80083960201232_1_alg».proof.Proof.Bridge

set_option maxRecDepth 16384

noncomputable section

namespace Cert.KernelIdeal.GcnChain

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- A convolution of equal operands is equal. -/
theorem agg_congr {n n' : (⟨Cert.ReferenceIdeal.S1700000, .f32⟩ : BufTy).Contents (Elt Ideal)}
    {r r' k k' : (⟨Cert.ReferenceIdeal.S1700000, .i32⟩ : BufTy).Contents (Elt Ideal)}
    {t t' : (⟨Cert.ReferenceIdeal.S100000x128, .f32⟩ : BufTy).Contents (Elt Ideal)}
    (hn : n = n') (hr : r = r') (hk : k = k') (ht : t = t') :
    Cert.Gcn.aggS (F := Ideal) n r k t = Cert.Gcn.aggS (F := Ideal) n' r' k' t' := by
  subst hn hr hk ht; rfl

/-! ## The edge ends and the edge weights, from the first launch's entry on -/

theorem W3_v5 : W3 m ρ c (Proc.devRef .tc main_v5) = Cert.Gcn.rowS (F := Ideal) (m ((c : Thread nD τ).loc main_arg1)) :=
  GcnHost.pre_v5 (W0 m ρ c)
theorem W4_v5 : W4 m ρ c (Proc.devRef .tc main_v5) = Cert.Gcn.rowS (F := Ideal) (m ((c : Thread nD τ).loc main_arg1)) :=
  (W4_of_ne m ρ c main_v5 (by decide)).trans (W3_v5 m ρ c)
theorem W5_v5 : W5 m ρ c (Proc.devRef .tc main_v5) = Cert.Gcn.rowS (F := Ideal) (m ((c : Thread nD τ).loc main_arg1)) :=
  (GcnHost.ops1_keep_v5 (W4 m ρ c)).trans (W4_v5 m ρ c)
theorem W6_v5 : W6 m ρ c (Proc.devRef .tc main_v5) = Cert.Gcn.rowS (F := Ideal) (m ((c : Thread nD τ).loc main_arg1)) :=
  (W6_of_ne m ρ c main_v5 (by decide)).trans (W5_v5 m ρ c)
theorem W7_v5 : W7 m ρ c (Proc.devRef .tc main_v5) = Cert.Gcn.rowS (F := Ideal) (m ((c : Thread nD τ).loc main_arg1)) :=
  (W7_of_ne m ρ c main_v5 (by decide)).trans (W6_v5 m ρ c)
theorem W8_v5 : W8 m ρ c (Proc.devRef .tc main_v5) = Cert.Gcn.rowS (F := Ideal) (m ((c : Thread nD τ).loc main_arg1)) :=
  (GcnHost.ops3_keep_v5 (W7 m ρ c)).trans (W7_v5 m ρ c)
theorem W9_v5 : W9 m ρ c (Proc.devRef .tc main_v5) = Cert.Gcn.rowS (F := Ideal) (m ((c : Thread nD τ).loc main_arg1)) :=
  (W9_of_ne m ρ c main_v5 (by decide)).trans (W8_v5 m ρ c)
theorem W10_v5 : W10 m ρ c (Proc.devRef .tc main_v5) = Cert.Gcn.rowS (F := Ideal) (m ((c : Thread nD τ).loc main_arg1)) :=
  (W10_of_ne m ρ c main_v5 (by decide)).trans (W9_v5 m ρ c)

theorem W3_v6 : W3 m ρ c (Proc.devRef .tc main_v6) = Cert.Gcn.colS (F := Ideal) (m ((c : Thread nD τ).loc main_arg1)) :=
  GcnHost.pre_v6 (W0 m ρ c)
theorem W4_v6 : W4 m ρ c (Proc.devRef .tc main_v6) = Cert.Gcn.colS (F := Ideal) (m ((c : Thread nD τ).loc main_arg1)) :=
  (W4_of_ne m ρ c main_v6 (by decide)).trans (W3_v6 m ρ c)
theorem W5_v6 : W5 m ρ c (Proc.devRef .tc main_v6) = Cert.Gcn.colS (F := Ideal) (m ((c : Thread nD τ).loc main_arg1)) :=
  (GcnHost.ops1_keep_v6 (W4 m ρ c)).trans (W4_v6 m ρ c)
theorem W6_v6 : W6 m ρ c (Proc.devRef .tc main_v6) = Cert.Gcn.colS (F := Ideal) (m ((c : Thread nD τ).loc main_arg1)) :=
  (W6_of_ne m ρ c main_v6 (by decide)).trans (W5_v6 m ρ c)
theorem W7_v6 : W7 m ρ c (Proc.devRef .tc main_v6) = Cert.Gcn.colS (F := Ideal) (m ((c : Thread nD τ).loc main_arg1)) :=
  (W7_of_ne m ρ c main_v6 (by decide)).trans (W6_v6 m ρ c)
theorem W8_v6 : W8 m ρ c (Proc.devRef .tc main_v6) = Cert.Gcn.colS (F := Ideal) (m ((c : Thread nD τ).loc main_arg1)) :=
  (GcnHost.ops3_keep_v6 (W7 m ρ c)).trans (W7_v6 m ρ c)
theorem W9_v6 : W9 m ρ c (Proc.devRef .tc main_v6) = Cert.Gcn.colS (F := Ideal) (m ((c : Thread nD τ).loc main_arg1)) :=
  (W9_of_ne m ρ c main_v6 (by decide)).trans (W8_v6 m ρ c)
theorem W10_v6 : W10 m ρ c (Proc.devRef .tc main_v6) = Cert.Gcn.colS (F := Ideal) (m ((c : Thread nD τ).loc main_arg1)) :=
  (W10_of_ne m ρ c main_v6 (by decide)).trans (W9_v6 m ρ c)

theorem W3_v29 : W3 m ρ c (Proc.devRef .tc main_v29) = Cert.Gcn.normS (F := Ideal) (Cert.Gcn.rowS (F := Ideal) (m ((c : Thread nD τ).loc main_arg1))) (Cert.Gcn.colS (F := Ideal) (m ((c : Thread nD τ).loc main_arg1))) :=
  GcnHost.pre_v29 (W0 m ρ c)
theorem W4_v29 : W4 m ρ c (Proc.devRef .tc main_v29) = Cert.Gcn.normS (F := Ideal) (Cert.Gcn.rowS (F := Ideal) (m ((c : Thread nD τ).loc main_arg1))) (Cert.Gcn.colS (F := Ideal) (m ((c : Thread nD τ).loc main_arg1))) :=
  (W4_of_ne m ρ c main_v29 (by decide)).trans (W3_v29 m ρ c)
theorem W5_v29 : W5 m ρ c (Proc.devRef .tc main_v29) = Cert.Gcn.normS (F := Ideal) (Cert.Gcn.rowS (F := Ideal) (m ((c : Thread nD τ).loc main_arg1))) (Cert.Gcn.colS (F := Ideal) (m ((c : Thread nD τ).loc main_arg1))) :=
  (GcnHost.ops1_keep_v29 (W4 m ρ c)).trans (W4_v29 m ρ c)
theorem W6_v29 : W6 m ρ c (Proc.devRef .tc main_v29) = Cert.Gcn.normS (F := Ideal) (Cert.Gcn.rowS (F := Ideal) (m ((c : Thread nD τ).loc main_arg1))) (Cert.Gcn.colS (F := Ideal) (m ((c : Thread nD τ).loc main_arg1))) :=
  (W6_of_ne m ρ c main_v29 (by decide)).trans (W5_v29 m ρ c)
theorem W7_v29 : W7 m ρ c (Proc.devRef .tc main_v29) = Cert.Gcn.normS (F := Ideal) (Cert.Gcn.rowS (F := Ideal) (m ((c : Thread nD τ).loc main_arg1))) (Cert.Gcn.colS (F := Ideal) (m ((c : Thread nD τ).loc main_arg1))) :=
  (W7_of_ne m ρ c main_v29 (by decide)).trans (W6_v29 m ρ c)
theorem W8_v29 : W8 m ρ c (Proc.devRef .tc main_v29) = Cert.Gcn.normS (F := Ideal) (Cert.Gcn.rowS (F := Ideal) (m ((c : Thread nD τ).loc main_arg1))) (Cert.Gcn.colS (F := Ideal) (m ((c : Thread nD τ).loc main_arg1))) :=
  (GcnHost.ops3_keep_v29 (W7 m ρ c)).trans (W7_v29 m ρ c)
theorem W9_v29 : W9 m ρ c (Proc.devRef .tc main_v29) = Cert.Gcn.normS (F := Ideal) (Cert.Gcn.rowS (F := Ideal) (m ((c : Thread nD τ).loc main_arg1))) (Cert.Gcn.colS (F := Ideal) (m ((c : Thread nD τ).loc main_arg1))) :=
  (W9_of_ne m ρ c main_v29 (by decide)).trans (W8_v29 m ρ c)
theorem W10_v29 : W10 m ρ c (Proc.devRef .tc main_v29) = Cert.Gcn.normS (F := Ideal) (Cert.Gcn.rowS (F := Ideal) (m ((c : Thread nD τ).loc main_arg1))) (Cert.Gcn.colS (F := Ideal) (m ((c : Thread nD τ).loc main_arg1))) :=
  (W10_of_ne m ρ c main_v29 (by decide)).trans (W9_v29 m ρ c)

/-! ## The arguments, up to where each is read -/

theorem W3_arg0 : W3 m ρ c (Proc.devRef .tc main_arg0) = (m ((c : Thread nD τ).loc main_arg0)) :=
  GcnHost.pre_keep_arg0 (W0 m ρ c)

theorem W3_arg2 : W3 m ρ c (Proc.devRef .tc main_arg2) = (m ((c : Thread nD τ).loc main_arg2)) :=
  GcnHost.pre_keep_arg2 (W0 m ρ c)

theorem W3_arg3 : W3 m ρ c (Proc.devRef .tc main_arg3) = (m ((c : Thread nD τ).loc main_arg3)) :=
  GcnHost.pre_keep_arg3 (W0 m ρ c)
theorem W4_arg3 : W4 m ρ c (Proc.devRef .tc main_arg3) = (m ((c : Thread nD τ).loc main_arg3)) :=
  (W4_of_ne m ρ c main_arg3 (by decide)).trans (W3_arg3 m ρ c)

theorem W3_arg4 : W3 m ρ c (Proc.devRef .tc main_arg4) = (m ((c : Thread nD τ).loc main_arg4)) :=
  GcnHost.pre_keep_arg4 (W0 m ρ c)
theorem W4_arg4 : W4 m ρ c (Proc.devRef .tc main_arg4) = (m ((c : Thread nD τ).loc main_arg4)) :=
  (W4_of_ne m ρ c main_arg4 (by decide)).trans (W3_arg4 m ρ c)
theorem W5_arg4 : W5 m ρ c (Proc.devRef .tc main_arg4) = (m ((c : Thread nD τ).loc main_arg4)) :=
  (GcnHost.ops1_keep_arg4 (W4 m ρ c)).trans (W4_arg4 m ρ c)
theorem W6_arg4 : W6 m ρ c (Proc.devRef .tc main_arg4) = (m ((c : Thread nD τ).loc main_arg4)) :=
  (W6_of_ne m ρ c main_arg4 (by decide)).trans (W5_arg4 m ρ c)

theorem W3_arg5 : W3 m ρ c (Proc.devRef .tc main_arg5) = (m ((c : Thread nD τ).loc main_arg5)) :=
  GcnHost.pre_keep_arg5 (W0 m ρ c)
theorem W4_arg5 : W4 m ρ c (Proc.devRef .tc main_arg5) = (m ((c : Thread nD τ).loc main_arg5)) :=
  (W4_of_ne m ρ c main_arg5 (by decide)).trans (W3_arg5 m ρ c)
theorem W5_arg5 : W5 m ρ c (Proc.devRef .tc main_arg5) = (m ((c : Thread nD τ).loc main_arg5)) :=
  (GcnHost.ops1_keep_arg5 (W4 m ρ c)).trans (W4_arg5 m ρ c)
theorem W6_arg5 : W6 m ρ c (Proc.devRef .tc main_arg5) = (m ((c : Thread nD τ).loc main_arg5)) :=
  (W6_of_ne m ρ c main_arg5 (by decide)).trans (W5_arg5 m ρ c)
theorem W7_arg5 : W7 m ρ c (Proc.devRef .tc main_arg5) = (m ((c : Thread nD τ).loc main_arg5)) :=
  (W7_of_ne m ρ c main_arg5 (by decide)).trans (W6_arg5 m ρ c)

theorem W3_arg6 : W3 m ρ c (Proc.devRef .tc main_arg6) = (m ((c : Thread nD τ).loc main_arg6)) :=
  GcnHost.pre_keep_arg6 (W0 m ρ c)
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) :=
  (GcnHost.ops1_keep_arg6 (W4 m ρ c)).trans (W4_arg6 m ρ c)
theorem W6_arg6 : W6 m ρ c (Proc.devRef .tc main_arg6) = (m ((c : Thread nD τ).loc main_arg6)) :=
  (W6_of_ne m ρ c main_arg6 (by decide)).trans (W5_arg6 m ρ c)
theorem W7_arg6 : W7 m ρ c (Proc.devRef .tc main_arg6) = (m ((c : Thread nD τ).loc main_arg6)) :=
  (W7_of_ne m ρ c main_arg6 (by decide)).trans (W6_arg6 m ρ c)
theorem W8_arg6 : W8 m ρ c (Proc.devRef .tc main_arg6) = (m ((c : Thread nD τ).loc main_arg6)) :=
  (GcnHost.ops3_keep_arg6 (W7 m ρ c)).trans (W7_arg6 m ρ c)
theorem W9_arg6 : W9 m ρ c (Proc.devRef .tc main_arg6) = (m ((c : Thread nD τ).loc main_arg6)) :=
  (W9_of_ne m ρ c main_arg6 (by decide)).trans (W8_arg6 m ρ c)

theorem W3_arg7 : W3 m ρ c (Proc.devRef .tc main_arg7) = (m ((c : Thread nD τ).loc main_arg7)) :=
  GcnHost.pre_keep_arg7 (W0 m ρ c)
theorem W4_arg7 : W4 m ρ c (Proc.devRef .tc main_arg7) = (m ((c : Thread nD τ).loc main_arg7)) :=
  (W4_of_ne m ρ c main_arg7 (by decide)).trans (W3_arg7 m ρ c)
theorem W5_arg7 : W5 m ρ c (Proc.devRef .tc main_arg7) = (m ((c : Thread nD τ).loc main_arg7)) :=
  (GcnHost.ops1_keep_arg7 (W4 m ρ c)).trans (W4_arg7 m ρ c)
theorem W6_arg7 : W6 m ρ c (Proc.devRef .tc main_arg7) = (m ((c : Thread nD τ).loc main_arg7)) :=
  (W6_of_ne m ρ c main_arg7 (by decide)).trans (W5_arg7 m ρ c)
theorem W7_arg7 : W7 m ρ c (Proc.devRef .tc main_arg7) = (m ((c : Thread nD τ).loc main_arg7)) :=
  (W7_of_ne m ρ c main_arg7 (by decide)).trans (W6_arg7 m ρ c)
theorem W8_arg7 : W8 m ρ c (Proc.devRef .tc main_arg7) = (m ((c : Thread nD τ).loc main_arg7)) :=
  (GcnHost.ops3_keep_arg7 (W7 m ρ c)).trans (W7_arg7 m ρ c)
theorem W9_arg7 : W9 m ρ c (Proc.devRef .tc main_arg7) = (m ((c : Thread nD τ).loc main_arg7)) :=
  (W9_of_ne m ρ c main_arg7 (by decide)).trans (W8_arg7 m ρ c)
theorem W10_arg7 : W10 m ρ c (Proc.devRef .tc main_arg7) = (m ((c : Thread nD τ).loc main_arg7)) :=
  (W10_of_ne m ρ c main_arg7 (by decide)).trans (W9_arg7 m ρ c)

/-! ## The first layer -/

/-- The first launch leaves the product of the features and the first weight matrix. -/
theorem W4_v30 : W4 m ρ c (Proc.devRef .tc main_v30) = GcnMM0.mm (m ((c : Thread nD τ).loc main_arg0)) (m ((c : Thread nD τ).loc main_arg2)) :=
  (W4_arr m ρ c 2).trans ((GcnMM0.final (V3 m ρ) c).trans (congrArg₂ GcnMM0.mm (W3_arg0 m ρ c) (W3_arg2 m ρ c)))

theorem W5_v43 : W5 m ρ c (Proc.devRef .tc main_v43) = Cert.Gcn.aggS (F := Ideal) (Cert.Gcn.normS (F := Ideal) (Cert.Gcn.rowS (F := Ideal) (m ((c : Thread nD τ).loc main_arg1))) (Cert.Gcn.colS (F := Ideal) (m ((c : Thread nD τ).loc main_arg1)))) (Cert.Gcn.rowS (F := Ideal) (m ((c : Thread nD τ).loc main_arg1))) (Cert.Gcn.colS (F := Ideal) (m ((c : Thread nD τ).loc main_arg1))) (GcnMM0.mm (m ((c : Thread nD τ).loc main_arg0)) (m ((c : Thread nD τ).loc main_arg2))) :=
  (GcnHost.ops1_agg (W4 m ρ c)).trans (agg_congr (W4_v29 m ρ c) (W4_v5 m ρ c) (W4_v6 m ρ c) (W4_v30 m ρ c))

theorem W5_v44 : W5 m ρ c (Proc.devRef .tc main_v44) = shapeCast S1x128 (m ((c : Thread nD τ).loc main_arg3)) shapeCasts_S128_S1x128 :=
  (GcnHost.ops1_bias (W4 m ρ c)).trans (congrArg (fun b => shapeCast S1x128 b shapeCasts_S128_S1x128) (W4_arg3 m ρ c))

/-- The second launch leaves the hidden layer. -/
theorem W6_v45 : W6 m ρ c (Proc.devRef .tc main_v45) = Cert.Gcn.hS (F := Ideal) (m ((c : Thread nD τ).loc main_arg0)) (m ((c : Thread nD τ).loc main_arg1)) (m ((c : Thread nD τ).loc main_arg2)) (m ((c : Thread nD τ).loc main_arg3)) :=
  (W6_arr m ρ c 2).trans ((GcnBA1.final (V5 m ρ) c).trans ((congrArg₂ GcnBA1.ba (W5_v43 m ρ c) (W5_v44 m ρ c)).trans
    ((Cert.Gcn.Bridge.relu_eq _ _ _).trans rfl)))

/-! ## The mean head -/

/-- The third launch reads the hidden layer and leaves it in place … -/
theorem W7_v45 : W7 m ρ c (Proc.devRef .tc main_v45) = Cert.Gcn.hS (F := Ideal) (m ((c : Thread nD τ).loc main_arg0)) (m ((c : Thread nD τ).loc main_arg1)) (m ((c : Thread nD τ).loc main_arg2)) (m ((c : Thread nD τ).loc main_arg3)) :=
  ((W7_arr m ρ c 0).trans (((dat2 (V6 m ρ) c).arrAt_in 0 rfl _).trans (A_eq2 (V6 m ρ) c 0))).trans (W6_v45 m ρ c)

/-- … and leaves its product with the second weight matrix. -/
theorem W7_v46 : W7 m ρ c (Proc.devRef .tc main_v46) = GcnMM2.mm (Cert.Gcn.hS (F := Ideal) (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((GcnMM2.final (V6 m ρ) c).trans (congrArg₂ GcnMM2.mm (W6_v45 m ρ c) (W6_arg4 m ρ c)))

theorem W8_v59 : W8 m ρ c (Proc.devRef .tc main_v59) = Cert.Gcn.aggS (F := Ideal) (Cert.Gcn.normS (F := Ideal) (Cert.Gcn.rowS (F := Ideal) (m ((c : Thread nD τ).loc main_arg1))) (Cert.Gcn.colS (F := Ideal) (m ((c : Thread nD τ).loc main_arg1)))) (Cert.Gcn.rowS (F := Ideal) (m ((c : Thread nD τ).loc main_arg1))) (Cert.Gcn.colS (F := Ideal) (m ((c : Thread nD τ).loc main_arg1))) (GcnMM2.mm (Cert.Gcn.hS (F := Ideal) (m ((c : Thread nD τ).loc main_arg0)) (m ((c : Thread nD τ).loc main_arg1)) (m ((c : Thread nD τ).loc main_arg2)) (m ((c : Thread nD τ).loc main_arg3))) (m ((c : Thread nD τ).loc main_arg4))) :=
  (GcnHost.ops3_agg (W7 m ρ c)).trans (agg_congr (W7_v29 m ρ c) (W7_v5 m ρ c) (W7_v6 m ρ c) (W7_v46 m ρ c))

theorem W8_v60 : W8 m ρ c (Proc.devRef .tc main_v60) = shapeCast S1x128 (m ((c : Thread nD τ).loc main_arg5)) shapeCasts_S128_S1x128 :=
  (GcnHost.ops3_bias (W7 m ρ c)).trans (congrArg (fun b => shapeCast S1x128 b shapeCasts_S128_S1x128) (W7_arg5 m ρ c))

theorem W8_v45 : W8 m ρ c (Proc.devRef .tc main_v45) = Cert.Gcn.hS (F := Ideal) (m ((c : Thread nD τ).loc main_arg0)) (m ((c : Thread nD τ).loc main_arg1)) (m ((c : Thread nD τ).loc main_arg2)) (m ((c : Thread nD τ).loc main_arg3)) :=
  (GcnHost.ops3_keep_v45 (W7 m ρ c)).trans (W7_v45 m ρ c)

/-- The fourth launch leaves the mean head. -/
theorem W9_v61 : W9 m ρ c (Proc.devRef .tc main_v61) = Cert.Gcn.muS (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((GcnBA3.final (V8 m ρ) c).trans ((congrArg₂ GcnBA3.ba (W8_v59 m ρ c) (W8_v60 m ρ c)).trans
    ((Cert.Gcn.Bridge.id_eq _ _ _).trans rfl)))

theorem W9_v45 : W9 m ρ c (Proc.devRef .tc main_v45) = Cert.Gcn.hS (F := Ideal) (m ((c : Thread nD τ).loc main_arg0)) (m ((c : Thread nD τ).loc main_arg1)) (m ((c : Thread nD τ).loc main_arg2)) (m ((c : Thread nD τ).loc main_arg3)) :=
  (W9_of_ne m ρ c main_v45 (by decide)).trans (W8_v45 m ρ c)

/-! ## The scale head -/

/-- The fifth launch leaves the product of the hidden layer and the third weight matrix. -/
theorem W10_v62 : W10 m ρ c (Proc.devRef .tc main_v62) = GcnMM4.mm (Cert.Gcn.hS (F := Ideal) (m ((c : Thread nD τ).loc main_arg0)) (m ((c : Thread nD τ).loc main_arg1)) (m ((c : Thread nD τ).loc main_arg2)) (m ((c : Thread nD τ).loc main_arg3))) (m ((c : Thread nD τ).loc main_arg6)) :=
  (W10_arr m ρ c 2).trans ((GcnMM4.final (V9 m ρ) c).trans (congrArg₂ GcnMM4.mm (W9_v45 m ρ c) (W9_arg6 m ρ c)))

theorem W10_v61 : W10 m ρ c (Proc.devRef .tc main_v61) = Cert.Gcn.muS (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W10_of_ne m ρ c main_v61 (by decide)).trans (W9_v61 m ρ c)

theorem W11_v75 : W11 m ρ c (Proc.devRef .tc main_v75) = Cert.Gcn.aggS (F := Ideal) (Cert.Gcn.normS (F := Ideal) (Cert.Gcn.rowS (F := Ideal) (m ((c : Thread nD τ).loc main_arg1))) (Cert.Gcn.colS (F := Ideal) (m ((c : Thread nD τ).loc main_arg1)))) (Cert.Gcn.rowS (F := Ideal) (m ((c : Thread nD τ).loc main_arg1))) (Cert.Gcn.colS (F := Ideal) (m ((c : Thread nD τ).loc main_arg1))) (GcnMM4.mm (Cert.Gcn.hS (F := Ideal) (m ((c : Thread nD τ).loc main_arg0)) (m ((c : Thread nD τ).loc main_arg1)) (m ((c : Thread nD τ).loc main_arg2)) (m ((c : Thread nD τ).loc main_arg3))) (m ((c : Thread nD τ).loc main_arg6))) :=
  (GcnHost.ops5_agg (W10 m ρ c)).trans (agg_congr (W10_v29 m ρ c) (W10_v5 m ρ c) (W10_v6 m ρ c) (W10_v62 m ρ c))

theorem W11_v76 : W11 m ρ c (Proc.devRef .tc main_v76) = shapeCast S1x128 (m ((c : Thread nD τ).loc main_arg7)) shapeCasts_S128_S1x128 :=
  (GcnHost.ops5_bias (W10 m ρ c)).trans (congrArg (fun b => shapeCast S1x128 b shapeCasts_S128_S1x128) (W10_arg7 m ρ c))

theorem W11_v61 : W11 m ρ c (Proc.devRef .tc main_v61) = Cert.Gcn.muS (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (GcnHost.ops5_keep_v61 (W10 m ρ c)).trans (W10_v61 m ρ c)

/-! ## The two results -/

/-- THE FIRST RESULT is the mean head of the arguments. -/
theorem out_mu : W12 m ρ c (Proc.devRef .tc main_v61) = Cert.Gcn.muS (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W12_of_ne m ρ c main_v61 (by decide)).trans (W11_v61 m ρ c)

/-- THE SECOND RESULT is the scale head of the arguments. -/
theorem out_sigma : W12 m ρ c (Proc.devRef .tc main_v77) = Cert.Gcn.sigmaS (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
  (W12_arr m ρ c 2).trans ((GcnBA5.final (V11 m ρ) c).trans ((congrArg₂ GcnBA5.ba (W11_v75 m ρ c) (W11_v76 m ρ c)).trans
    ((Cert.Gcn.Bridge.sp_eq _ _ _).trans rfl)))

end Cert.KernelIdeal.GcnChain

end
-- ==== Proof.RefIsSpec.lean ====
/-
  The reference's run ends at the network's functions of the arguments.

  The reference's two results, as composed terms of the launch contents, are `muS` and `sigmaS` of the argument
  arrays: the same operations in the same arrangement, with the shared pieces (the edge ends, the weights, the hidden
  layer) named.
-/
import proofs.«109854_j80083960201232_1_alg».proof.Proof.RefRunPatched
import proofs.«109854_j80083960201232_1_alg».proof.Proof.GcnSpec

noncomputable section

namespace Cert.Gcn.Ref

open Cert.ReferenceIdeal Cert.ReferenceIdeal.Gen Idealize.ShloMosaic Idealize.ShloMosaic.TcCoe Idealize.SL.Sem

variable {F : FTy → Type} [FloatOps F]

set_option maxRecDepth 16384 in
/-- The first result is the mean head of the arguments. -/
theorem res_mu (m : (ℓ : Loc nD τ sig) → Buf (Elt F) ℓ) (c : Dev nD) :
    Cert.ReferenceIdeal.ValueP.res_main_v64 m c
      = muS (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v64 muS hS reluS zerosS biasS aggS normS dinvS degS adjS rowS colS endsS
  rfl

set_option maxRecDepth 16384 in
/-- The second result is the scale head of the arguments. -/
theorem res_sigma (m : (ℓ : Loc nD τ sig) → Buf (Elt F) ℓ) (c : Dev nD) :
    Cert.ReferenceIdeal.ValueP.res_main_v84 m c
      = sigmaS (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg6)) (m ((c.tc : Thread nD τ).loc main_arg7)) := by
  unfold Cert.ReferenceIdeal.ValueP.res_main_v84 sigmaS softplusS hS reluS zerosS biasS aggS normS dinvS degS adjS rowS colS endsS
  rfl

end Cert.Gcn.Ref

end
-- ==== Proof.lean ====
/-
  The certificate of a two-layer graph-convolution network with a mean and a scale head.

  Both programs compute, from node features `x0 : [100000, 256]`, an edge list `x1 : i32[2, 1600000]`, three weight matrices
  and three biases,
    h     = relu (A (x0 · x2) + x3),    mu = A (h · x4) + x5,    sigma = softplus (A (h · x6) + x7) + 1e-7,
  where `A t` adds, onto the row of every edge's target, the row of `t` at the edge's source scaled by the edge's weight
  (the product of the inverse square roots of the two ends' degrees, self loops included). The kernel runs the three
  matrix products and the three bias-and-activation passes as six launches, blocked over the rows, and the gathers and
  scatter-adds between them on the host exactly as the reference does. On the extended reals a row block of a product
  is the rows of the whole product, a sum over `k` on either side; the bias row read at a column is the bias broadcast
  along the rows; the two spellings of the softplus are one function. So both programs end at the same two functions of
  the arguments (`Cert.Gcn.muS`, `Cert.Gcn.sigmaS`), whatever the inputs: no finiteness is needed. The kernel's
  idealization rewrote nothing, so `preserves` is trivial, and the three frames are the generated ones (the
  reference's is its run with the results dropped).
-/
import proofs.«109854_j80083960201232_1_alg».proof.Defs
import proofs.«109854_j80083960201232_1_alg».proof.Proof.Gen.Kernel
import proofs.«109854_j80083960201232_1_alg».proof.Proof.Gen.Kernel.Frame
import proofs.«109854_j80083960201232_1_alg».proof.Proof.Gen.KernelIdeal
import proofs.«109854_j80083960201232_1_alg».proof.Proof.Gen.KernelIdeal.Frame
import proofs.«109854_j80083960201232_1_alg».proof.Proof.Gen.ReferenceIdeal
import proofs.«109854_j80083960201232_1_alg».proof.Proof.Gen.Pre_finite_inputs
import proofs.«109854_j80083960201232_1_alg».proof.Proof.KernelRun
import proofs.«109854_j80083960201232_1_alg».proof.Proof.KernelChain
import proofs.«109854_j80083960201232_1_alg».proof.Proof.RefRunPatched
import proofs.«109854_j80083960201232_1_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both runs end with the mean head and the scale head of the (agreeing) arguments. -/
theorem algebraic : Cert.algebraic_KernelIdeal_ReferenceIdeal := by
  intro m ρ m' ρ' _ hagree
  refine ⟨fun c => Cert.Gcn.muS (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Gcn.sigmaS (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c =>
      ⟨(h c).1.trans (Cert.KernelIdeal.GcnChain.out_mu m ρ c), (h c).2.1.trans (Cert.KernelIdeal.GcnChain.out_sigma m ρ c), (h c).2.2⟩)
      (Cert.KernelIdeal.GcnRun.run_named m ρ)
  · refine (θ_run Cert.ReferenceIdeal.defs _ _).mono (fun _ h c => ⟨(h c).1.trans ?_, (h c).2.1.trans ?_, (h c).2.2⟩)
      (Cert.ReferenceIdeal.ValueP.run (F := Ideal) m' ρ')
    · obtain ⟨a0, a1, a2, a3, a4, a5, a6, a7⟩ := hagree c
      rw [Cert.Gcn.Ref.res_mu, a0, a1, a2, a3, a4, a5]
    · obtain ⟨a0, a1, a2, a3, a4, a5, a6, a7⟩ := hagree c
      rw [Cert.Gcn.Ref.res_sigma, a0, a1, a2, a3, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
